-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3x1024x1024 : Shape := ⟨3, ![3, 1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn {F : FTy → Type} [FloatOps F] (main_arg0 : FVec F S4x2048x1024 .f32) (main_arg1 : FVec F S3x1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3x1024x1024 .f32 := Host.absf main_arg1
  let main_cst_0 : FVec F S_ .f32 := constant S_ .f32 0x7F800000#32
  let main_v5 : FVec F S3x1024x1024 .f32 := broadcastInDim S3x1024x1024 ![] bcast_S_S3x1024x1024 main_cst_0
  let main_v6 : IVec S3x1024x1024 1 := cmpf .olt main_v4 main_v5
  let main_c_1 : IVec S_ 1 := constantI S_ 1 1#1
  let main_v7 : IVec S_ 1 := (fun x v => Host.reduce IntOp.andi x v reducesTo_S3x1024x1024_S_d0_1_2 h_S_) main_v6 main_c_1
  let main_v8 : IVec S_ 1 := andi main_v3 main_v7
  main_v8
-- ==== Kernel.lean ====
abbrev S4x2048x1024 : Shape := ⟨3, ![4, 2048, 1024]⟩
abbrev S3x1024x1024 : Shape := ⟨3, ![3, 1024, 1024]⟩
abbrev S8192x1024 : Shape := ⟨2, ![8192, 1024]⟩
abbrev S3x8192x1024 : Shape := ⟨3, ![3, 8192, 1024]⟩
abbrev S512x1024 : Shape := ⟨2, ![512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S3x4x2048x1024 : Shape := ⟨4, ![3, 4, 2048, 1024]⟩
abbrev S1x1x1024x1024 : Shape := ⟨4, ![1, 1, 1024, 1024]⟩
abbrev S1x1x256x1024 : Shape := ⟨4, ![1, 1, 256, 1024]⟩
abbrev S1024x1 : Shape := ⟨2, ![1024, 1]⟩
abbrev S256x1024 : Shape := ⟨2, ![256, 1024]⟩
abbrev S1024x256 : Shape := ⟨2, ![1024, 256]⟩
abbrev S1024 : Shape := ⟨1, ![1024]⟩

abbrev nBuf : Space → Nat
  | .hbm => 6
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S3x1024x1024, .f32⟩
  | .hbm, ⟨2, _⟩ => ⟨S8192x1024, .f32⟩
  | .hbm, ⟨3, _⟩ => ⟨S3x8192x1024, .bf16⟩
  | .hbm, ⟨4, _⟩ => ⟨S3x4x2048x1024, .bf16⟩
  | .hbm, ⟨5, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3x1024x1024, .f32⟩
  | .local _ .vmem, ⟨3, _⟩ => ⟨S3x512x1024, .bf16⟩
  | .local _ .vmem, ⟨4, _⟩ => ⟨S3x512x1024, .bf16⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | .local _ .vmem, ⟨10, _⟩ => ⟨S1x1x256x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1024x1, .f32⟩
  | .local _ .vmem, ⟨14, _⟩ => ⟨S1024x1, .f32⟩
  | .local _ .vmem, ⟨15, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_30 : BitVec 32 := 0#32
  let v45 : BitVec 1 := Scalar.cmpi .ne v44 c0_i32_30
  v45

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S3x512x1024_S1x512x1024_0_0_0 : ∀ a, (![0, 0, 0] : Fin 3 → Nat) a + S1x512x1024.size a ≤ S3x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S3x512x1024_S1x512x1024_0_0_0 : (Rect.unit (s := S3x512x1024) ![0, 0, 0] S1x512x1024.size inb_S3x512x1024_S1x512x1024_0_0_0).PackedRows (EltTy.packing .bf16)
  inb_S3x1024x1024_S1x1024x1024_1_0_0 : ∀ a, (![1, 0, 0] : Fin 3 → Nat) a + S1x1024x1024.size a ≤ S3x1024x1024.size a
  inb_S3x512x1024_S1x512x1024_1_0_0 : ∀ a, (![1, 0, 0] : Fin 3 → Nat) a + S1x512x1024.size a ≤ S3x512x1024.size a
  packedbf16_S3x512x1024_S1x512x1024_1_0_0 : (Rect.unit (s := S3x512x1024) ![1, 0, 0] S1x512x1024.size inb_S3x512x1024_S1x512x1024_1_0_0).PackedRows (EltTy.packing .bf16)
  inb_S3x1024x1024_S1x1024x1024_2_0_0 : ∀ a, (![2, 0, 0] : Fin 3 → Nat) a + S1x1024x1024.size a ≤ S3x1024x1024.size a
  inb_S3x512x1024_S1x512x1024_2_0_0 : ∀ a, (![2, 0, 0] : Fin 3 → Nat) a + S1x512x1024.size a ≤ S3x512x1024.size a
  packedbf16_S3x512x1024_S1x512x1024_2_0_0 : (Rect.unit (s := S3x512x1024) ![2, 0, 0] S1x512x1024.size inb_S3x512x1024_S1x512x1024_2_0_0).PackedRows (EltTy.packing .bf16)
  shapeCasts_S3x8192x1024_S3x4x2048x1024 : S3x8192x1024.ShapeCasts S3x4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  inb_S1x1x256x1024_S1x1x256x1024_0_0_0_0 : ∀ a, (![0, 0, 0, 0] : Fin 4 → Nat) a + S1x1x256x1024.size a ≤ S1x1x256x1024.size a
  h_S1x1x256x1024 : 0 < S1x1x256x1024.numel
  shapeCasts_S1x1x256x1024_S256x1024 : S1x1x256x1024.ShapeCasts S256x1024
  transposes_S256x1024_p1_0_S1024x256 : S256x1024.Transposes [1, 0] S1024x256
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x1024.size a ≤ S3x1024x1024.size a
  hwx0_1 : ∀ i : grid0.Coords, EltTy.bits .f32 = 32 ∨ (Rect.block (s := S3x1024x1024) S3x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x512x1024.size a ≤ S3x8192x1024.size a
  hwx0_2 : ∀ i : grid0.Coords, EltTy.bits .bf16 = 32 ∨ (Rect.block (s := S3x8192x1024) S3x512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x1024.size a ≤ S3x4x2048x1024.size a
  hwx1_0 : ∀ i : grid1.Coords, EltTy.bits .bf16 = 32 ∨ (Rect.block (s := S3x4x2048x1024) S1x1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256x1024.size a ≤ S3x4x2048x1024.size a
  hwx1_1 : ∀ i : grid1.Coords, EltTy.bits .bf16 = 32 ∨ (Rect.block (s := S3x4x2048x1024) S1x1x256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256x1024.size a ≤ S3x4x2048x1024.size a
  hwx1_2 : ∀ i : grid1.Coords, EltTy.bits .bf16 = 32 ∨ (Rect.block (s := S3x4x2048x1024) S1x1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3x1024x1024, .f32⟩
  | .hbm, ⟨2, _⟩ => ⟨S1x1024x1024, .f32⟩
  | .hbm, ⟨3, _⟩ => ⟨S1024x1024, .f32⟩
  | .hbm, ⟨4, _⟩ => ⟨S4x2048x1024, .f32⟩
  | .hbm, ⟨5, _⟩ => ⟨S1x1024x1024, .f32⟩
  | .hbm, ⟨6, _⟩ => ⟨S1024x1024, .f32⟩
  | .hbm, ⟨7, _⟩ => ⟨S4x2048x1024, .f32⟩
  | .hbm, ⟨8, _⟩ => ⟨S1x1024x1024, .f32⟩
  | .hbm, ⟨9, _⟩ => ⟨S1024x1024, .f32⟩
  | .hbm, ⟨10, _⟩ => ⟨S4x2048x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S3x1024x1024_S1x1024x1024_2_0_0 : S3x1024x1024.Slices ![2, 0, 0] S1x1024x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRegion0.lean ====
/-
  The projection region (the first kernel of the program), at any float instance.

  At grid point `t` the body reads a block of 512 rows of the flattened activations `x` and the whole weight array
  `w` (three 1024 x 1024 matrices), and writes three slabs of 512 x 1024 into its output block: slab `p` is the matrix
  product of the row block with `w p`. The three stores tile the output block, so what the block holds after the body
  is the composition of the three stores over the two input blocks (`out0_2`). This module states that, proves the
  body's triple, and packages the region's proof data and its body obligation at the contents `V` the region is
  entered from.
-/
import proofs.«114428_j86569360818603_2_alg».proof.Proof.Gen.Kernel.Launch
import proofs.«114428_j86569360818603_2_alg».proof.Proof.Gen.Kernel.Skeleton
import proofs.«114428_j86569360818603_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights, fetched once, are in their staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rx : Rect S512x1024 := Rect.unit (s := S512x1024) ![0, 0] S512x1024.size inb_S512x1024_S512x1024_0_0
abbrev rw0 : Rect S3x1024x1024 := Rect.unit (s := S3x1024x1024) ![0, 0, 0] S1x1024x1024.size inb_S3x1024x1024_S1x1024x1024_0_0_0
abbrev rw1 : Rect S3x1024x1024 := Rect.unit (s := S3x1024x1024) ![1, 0, 0] S1x1024x1024.size inb_S3x1024x1024_S1x1024x1024_1_0_0
abbrev rw2 : Rect S3x1024x1024 := Rect.unit (s := S3x1024x1024) ![2, 0, 0] S1x1024x1024.size inb_S3x1024x1024_S1x1024x1024_2_0_0
abbrev ro0 : Rect S3x512x1024 := Rect.unit (s := S3x512x1024) ![0, 0, 0] S1x512x1024.size inb_S3x512x1024_S1x512x1024_0_0_0
abbrev ro1 : Rect S3x512x1024 := Rect.unit (s := S3x512x1024) ![1, 0, 0] S1x512x1024.size inb_S3x512x1024_S1x512x1024_1_0_0
abbrev ro2 : Rect S3x512x1024 := Rect.unit (s := S3x512x1024) ![2, 0, 0] S1x512x1024.size inb_S3x512x1024_S1x512x1024_2_0_0

/-! ## What the body leaves in the output block -/

/-- The output block after the body: slab `p` is the product of the row block with weight matrix `p`; the three
    stores as pieces, the last one first. -/
def out0_2 (x0 : Vec F S512x1024 .f32) (x1 : Vec F S3x1024x1024 .f32) : Vec F S3x512x1024 .bf16 :=
  View.canon [⟨ro2, k0_pay4 (View.ld x0 rx) (View.ld x1 rw2)⟩,
    ⟨ro1, k0_pay3 (View.ld x0 rx) (View.ld x1 rw1)⟩,
    ⟨ro0, k0_pay2 (View.ld x0 rx) (View.ld x1 rw0)⟩]

/-- The three slabs tile the block. -/
theorem cover0_2 (p0 p1 p2 : Vec F S1x512x1024 .bf16) (y : S3x512x1024.Idx) :
    ∃ pc ∈ ([⟨ro2, p0⟩, ⟨ro1, p1⟩, ⟨ro0, p2⟩] : List (View.Piece (Elt F) S3x512x1024 .bf16)), y ∈ pc.1.set :=
  View.cover_of_tiled [⟨ro2, p0⟩, ⟨ro1, p1⟩, ⟨ro0, p2⟩] S1x512x1024.size (by rfl) y

/-! ## The body's triple -/

set_option maxHeartbeats 1000000 in
/-- The body on whole staging buffers, the inputs' at `x0`, `x1` and the output's at anything, runs to the
    continuation holding the inputs' as they were and the output's at `out0_2 x0 x1`. -/
theorem sound_kernel0 (c : Dev nD) (E : Set ℕ) (i : grid0.Coords)
    (arg1 : Memref sig .tc .vmem S512x1024 .f32) (harg1 : arg1.IsWhole)
    (arg2 : Memref sig .tc .vmem S3x1024x1024 .f32) (harg2 : arg2.IsWhole)
    (arg3 : Memref sig .tc .vmem S3x512x1024 .bf16) (harg3 : arg3.IsWhole)
    (x0 : Vec F S512x1024 .f32) (x1 : Vec F S3x1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The region's proof data -/

/-- The arrays as the region finds them; after the body at point `t` each input's buffer at its block and the
    output's at `out0_2` of the input blocks; the scoped rest and the generator register pass through; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Cert.Kernel.Region0

end
-- ==== Proof.KRegion1Runs.lean ====
/-
  The attention region (the second kernel of the program): what its three control cases share.

  The grid is (batch, query tile, key tile) = (4, 2, 8), the key tile innermost. At key tile 0 the body resets its
  three scratch arrays (the running row maximum, the running denominator, the running numerator); at every key tile
  it folds the tile's scores into them; at key tile 7 it divides the numerator by the denominator into the output
  block. So a point is in one of three cases: the first key tile (reset, no output), a middle one (neither), the
  last one (output). This module has the windows' blocks, the two conditions in closed form over the grid, where
  the output window is idle, and the names of the staging and scratch buffers the three runs are stated over.
-/
import proofs.«114428_j86569360818603_2_alg».proof.Proof.Gen.Kernel.Launch
import proofs.«114428_j86569360818603_2_alg».proof.Proof.Gen.Kernel.Skeleton
import proofs.«114428_j86569360818603_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point (it is fetched when the query tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value block is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first key tile", as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile". -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Nor at a middle key tile. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last key tile the output block is stored. -/
theorem liveAt1_3_C : ∀ t : Fin cfg1.N, ¬cond1_0 (grid1.coords t) → cond1_1 (grid1.coords t) → cfg1.idle 3 (grid1.coords t) = false := by decide +kernel

/-! ## The buffers the runs are stated over -/

/-- One staging buffer of the output window, through which its contents are stated. -/
abbrev VO1_3 : View sig .tc .vmem S1x1024x1024 .f32 := (Memref.whole cc1_stg3_0 : Memref sig .tc .vmem S1x1024x1024 .f32).view
/-- Each window's current staging memref at point `t`, as the pipeline passes it, and its wholeness. -/
abbrev ms1_0 (t : Fin cfg1.N) : Memref sig .tc .vmem S1x1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch arrays: the running row maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.Kernel.Region1

end
-- ==== Proof.KRegion1RunA.lean ====
/-
  The attention body, run whole, in the case "first key tile: the scratch arrays are reset, nothing is stored into the output block".
-/
import proofs.«114428_j86569360818603_2_alg».proof.Proof.KRegion1Runs

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three scratch arrays, as pieces (the last store
    first), in the case "first key tile: the scratch arrays are reset, nothing is stored into the output block", with the proof that the body, run on whole buffers holding the stated contents,
    reaches its continuation with the inputs as they were and each stored buffer with those pieces written. The
    pieces are found by the run. -/
noncomputable def kernelRun1_A (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Region1

end
-- ==== Proof.KRegion1RunB.lean ====
/-
  The attention body, run whole, in the case "middle key tile: no reset, nothing is stored into the output block".
-/
import proofs.«114428_j86569360818603_2_alg».proof.Proof.KRegion1RunA

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three scratch arrays, as pieces (the last store
    first), in the case "middle key tile: no reset, nothing is stored into the output block", with the proof that the body, run on whole buffers holding the stated contents,
    reaches its continuation with the inputs as they were and each stored buffer with those pieces written. The
    pieces are found by the run. -/
noncomputable def kernelRun1_B (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Region1

end
-- ==== Proof.KRegion1RunC.lean ====
/-
  The attention body, run whole, in the case "last key tile: no reset, the quotient is stored into the output block".
-/
import proofs.«114428_j86569360818603_2_alg».proof.Proof.KRegion1RunB

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in the output block and in the three scratch arrays, as pieces (the last store
    first), in the case "last key tile: no reset, the quotient is stored into the output block", with the proof that the body, run on whole buffers holding the stated contents,
    reaches its continuation with the inputs as they were and each stored buffer with those pieces written. The
    pieces are found by the run. -/
noncomputable def kernelRun1_C (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Region1

end
-- ==== Proof.KRegion1.lean ====
/-
  The attention region: what its output block and its three scratch arrays hold after every grid point, the region's
  invariant and proof data, and its body obligation.

  The three runs (first, middle, last key tile) each leave pieces in the buffers they store into; read back, those
  are the buffers' contents after the point. `outsAt1` chains them along the grid: a middle or last key tile starts
  from what the point before left in the scratch arrays, a first key tile resets them. The invariant between points
  holds the scratch arrays at those contents.
-/
import proofs.«114428_j86569360818603_2_alg».proof.Proof.KRegion1RunC

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- At a first key tile nothing is stored into the output block: a placeholder nothing consults. -/
def out1_A_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- At a first key tile the stores into scratch array 0 cover it. -/
theorem scover1_A_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What a first key tile leaves in scratch array 0. -/
def sout1_A_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- At a first key tile the stores into scratch array 1 cover it. -/
theorem scover1_A_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What a first key tile leaves in scratch array 1. -/
def sout1_A_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- At a first key tile the stores into scratch array 2 cover it. -/
theorem scover1_A_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What a first key tile leaves in scratch array 2. -/
def sout1_A_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At a middle key tile nothing is stored into the output block: a placeholder nothing consults. -/
def out1_B_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- At a middle key tile the stores into scratch array 0 cover it. -/
theorem scover1_B_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What a middle key tile leaves in scratch array 0. -/
def sout1_B_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- At a middle key tile the stores into scratch array 1 cover it. -/
theorem scover1_B_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What a middle key tile leaves in scratch array 1. -/
def sout1_B_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- At a middle key tile the stores into scratch array 2 cover it. -/
theorem scover1_B_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What a middle key tile leaves in scratch array 2. -/
def sout1_B_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- At a last key tile the store into the output block covers it. -/
theorem cover1_C_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What a last key tile leaves in the output block. -/
def out1_C_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- At a last key tile the stores into scratch array 0 cover it. -/
theorem scover1_C_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What a last key tile leaves in scratch array 0. -/
def sout1_C_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- At a last key tile the stores into scratch array 1 cover it. -/
theorem scover1_C_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What a last key tile leaves in scratch array 1. -/
def sout1_C_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- At a last key tile the stores into scratch array 2 cover it. -/
theorem scover1_C_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What a last key tile leaves in scratch array 2. -/
def sout1_C_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output block and the scratch arrays hold after each point -/

/-- After the body at position `n`: the output block, then the running maximum, denominator and numerator. The case
    is read off the position (first, middle or last key tile); a middle or last tile starts from what the point before
    left in the scratch arrays. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key tile. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle key tile, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key tile, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- A scoped buffer of the core at some contents. -/
abbrev rb (c : Dev nD) (b : Ref sig .tc) : sProp 𝕄 :=
  iprop(∃ f : Buf (Elt F) ((c : Thread nD τ).loc b), ((c : Thread nD τ).loc b) ↦{fullShare} f)

/-- What the launch hands the region beside its windows: the other kernel's staging buffers and the three scratch
    arrays, each at some contents, and the generator register. -/
theorem PhiA1_eq (c : Dev nD) :
    (Pipeline.ΦA spec1 c : sProp 𝕄)
      = iprop(iprop(rb (F := F) c cc0_stg0_0 ∗ rb (F := F) c cc0_stg0_1 ∗ rb (F := F) c cc0_stg1_0 ∗ rb (F := F) c cc0_stg2_0 ∗ rb (F := F) c cc0_stg2_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point, what the launch hands over; afterwards the three
    scratch arrays at what the point before left in them. -/
def PhiS1 (c : Dev nD) : (n : ℕ) → n ≤ cfg1.N → sProp 𝕄
  | 0, _ => Pipeline.ΦA spec1 c
  | n + 1, hn => iprop(iprop(rb (F := F) c cc0_stg0_0 ∗ rb (F := F) c cc0_stg0_1 ∗ rb (F := F) c cc0_stg1_0 ∗ rb (F := F) c cc0_stg2_0 ∗ rb (F := F) c cc0_stg2_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rb (F := F) c cc0_stg0_0 ∗ rb (F := F) c cc0_stg0_1 ∗ rb (F := F) c cc0_stg1_0 ∗ rb (F := F) c cc0_stg2_0 ∗ rb (F := F) c cc0_stg2_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(rb (F := F) c cc0_stg0_0 ∗ rb (F := F) c cc0_stg0_1 ∗ rb (F := F) c cc0_stg1_0 ∗ rb (F := F) c cc0_stg2_0 ∗ rb (F := F) c cc0_stg2_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The region's proof data -/

/-- The arrays as the region finds them; after the body at point `t` each input's buffer at its block and the output
    block at `outsAt1`'s first component; the invariant `PhiS1`; the three input windows read one array, so they hold it
    at three shares that make up the whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the position says which case the point is in; the
    invariant hands the body the scratch arrays at what the point before left (at anything before a first key tile's
    reset) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨R0, R1, R2, R3, R4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 HS0 HS1 HS2 Hg]
        · isplitl [R0 R1 R2 R3 R4 HS0 HS1 HS2]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, R3, R4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 HS0 HS1 HS2 Hg]
        · isplitl [R0 R1 R2 R3 R4 HS0 HS1 HS2]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      have hz : t.val ≠ 0 := by omega
      rw [PhiS1_castSucc V c t, PhiS1_pos V c _ _ hz]
      iintro ⟨⟨⟨R0, R1, R2, R3, R4, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R0 R1 R2 R3 R4 HS0 HS1 HS2 Hg]
      · isplitl [R0 R1 R2 R3 R4 HS0 HS1 HS2]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      have hz : t.val ≠ 0 := by omega
      rw [PhiS1_castSucc V c t, PhiS1_pos V c _ _ hz]
      iintro ⟨⟨⟨R0, R1, R2, R3, R4, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 HS0 HS1 HS2 Hg]
      · isplitl [R0 R1 R2 R3 R4 HS0 HS1 HS2]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the scratch arrays' contents are
    forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨R0, R1, R2, R3, R4, HS0, HS1, HS2⟩, Hg⟩
  isplitl [R0 R1 R2 R3 R4 HS0 HS1 HS2]
  · isplitl [R0]; · iexact R0
    isplitl [R1]; · iexact R1
    isplitl [R2]; · iexact R2
    isplitl [R3]; · iexact R3
    isplitl [R4]; · iexact R4
    isplitl [HS0]; · iexists _; iexact HS0
    isplitl [HS1]; · iexists _; iexact HS1
    iexists _; iexact HS2
  iexact Hg

end Cert.Kernel.Region1

end
-- ==== Proof.KWhole.lean ====
/-
  The whole program run: the two reshapes and the two kernel regions as four segments, from the launch to the
  return.

  Between two segments every unscoped buffer of the core is held at known contents: the launch memory, then each
  reshape's result written, then each region's result array at what its write-backs leave. The projection region's
  windows read three distinct arrays. The attention region's three input windows read ONE array, the reshaped
  projections: its ownership is divided into three shares at the region's entry and put together again at its exit,
  the array unchanged. The run's post names the result array's final contents and says both arguments end as
  launched; the frame claims and the value claim both follow from it.
-/
import proofs.«114428_j86569360818603_2_alg».proof.Proof.KRegion0
import proofs.«114428_j86569360818603_2_alg».proof.Proof.KRegion1
import Idealize.ShloMosaic.Lib.Pipeline.RegionsLoop
import Idealize.ShloMosaic.Lib.Pipeline.FrameSuffix

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Region0 Cert.Kernel.Region1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two segments -/

/-- Core `c`'s buffers at launch. -/
abbrev W0 : Dev nD → Valuation τ sig (Elt F) := fun c b => (s₀ m ρ).mem ((c : Dev nD), b)
/-- After the reshape of `x` (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the projections (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the write-backs leave, every other buffer as entered
    (the three input windows read one array and leave it as it was). -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_main_v3 (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## One array read through three windows: dividing its ownership and putting it together again -/

section Shared

variable (V : (c : Dev nD) → (b : Ref sig .tc) → Buf (Elt F) ((c : Thread nD τ).loc b))

/-- The attention region's arrays, window by window, as plain buffer ownership at the windows' shares. -/
theorem arrays1_eq (c : Dev nD) (Fw : (w : Fin cfg1.W) → Buf (Elt F) ((cfg1.win w).arr.view.loc (c.tc : Thread nD τ))) :
    (dat1 V c).arrays Fw
      = bigSep Finset.univ fun w => ((((c.tc : Thread nD τ).loc (Pipeline.arrRef spec1 w)) ↦{(dat1 V c).share w} Fw w : sProp 𝕄)) := by
  unfold Dat.arrays
  exact bigSep_congr fun w _ => by rw [(arr_whole1 w).set_eq_univ]

theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The two buffers behind the region's four windows. -/
theorem arrBufs1_eq (c : Dev nD) (V' : (b : Ref sig .tc) → Buf (Elt F) ((c : Thread nD τ).loc b)) :
    (Pipeline.arrBufs spec1 c V' : sProp 𝕄)
      = iprop((((c.tc : Thread nD τ).loc main_v2) ↦{fullShare} V' main_v2) ∗ (((c.tc : Thread nD τ).loc main_v3) ↦{fullShare} V' main_v3)) := by
  unfold Pipeline.arrBufs
  rw [bigSep_eq_bigSepL_of_eq [main_v2, main_v3] (by decide) (by decide)]
  rfl

/-- At the attention region's entry: the reshaped projections and the result array, each held whole, make the
    region's arrays — the projections at three shares, one per input window. -/
theorem arrays1_split (c : Dev nD) :
    (Pipeline.arrBufs spec1 c (V c) : sProp 𝕄) ⊢ (dat1 V c).arrays ((dat1 V c).arrAt · 0) := by
  rw [arrBufs1_eq, arrays1_eq, bigSep_W1, share1_0, share1_1, share1_2, share1_3]
  simp only [show ∀ w, (dat1 V c).arrAt w 0 = (dat1 V c).A w from fun _ => rfl, A_eq1]
  show iprop((((c.tc : Thread nD τ).loc main_v2) ↦{fullShare} V c main_v2) ∗ (((c.tc : Thread nD τ).loc main_v3) ↦{fullShare} V c main_v3))
    ⊢ (iprop((((c.tc : Thread nD τ).loc main_v2) ↦{fullShare.left} V c main_v2) ∗ (((c.tc : Thread nD τ).loc main_v2) ↦{fullShare.right.left} V c main_v2)
        ∗ (((c.tc : Thread nD τ).loc main_v2) ↦{fullShare.right.right} V c main_v2) ∗ (((c.tc : Thread nD τ).loc main_v3) ↦{fullShare} V c main_v3)) : sProp 𝕄)
  iintro ⟨H2, H3⟩
  ihave Ha := (pointsTo_share (PosShare.mem_left_op_right fullShare)).1 $$ H2
  icases Ha with ⟨Hl, Hr⟩
  ihave Hb := (pointsTo_share (PosShare.mem_left_op_right fullShare.right)).1 $$ Hr
  icases Hb with ⟨Hrl, Hrr⟩
  isplitl [Hl]; · iexact Hl
  isplitl [Hrl]; · iexact Hrl
  isplitl [Hrr]; · iexact Hrr
  iexact H3

/-- At its exit: the three shares of the projections, unchanged, are the whole array again, and the result array is
    at what the write-backs left. -/
theorem arrays1_join (c : Dev nD) (V' : (b : Ref sig .tc) → Buf (Elt F) ((c : Thread nD τ).loc b))
    (h2 : V' main_v2 = V c main_v2) (h3 : V' main_v3 = (dat1 V c).arrAt 3 cfg1.N) :
    (dat1 V c).arrays ((dat1 V c).arrAt · cfg1.N) ⊢ (Pipeline.arrBufs spec1 c V' : sProp 𝕄) := by
  have e0 : (dat1 V c).arrAt 0 cfg1.N = V c (Pipeline.arrRef spec1 0) := ((dat1 V c).arrAt_in 0 rfl _).trans (A_eq1 V c 0)
  have e1 : (dat1 V c).arrAt 1 cfg1.N = V c (Pipeline.arrRef spec1 1) := ((dat1 V c).arrAt_in 1 rfl _).trans (A_eq1 V c 1)
  have e2 : (dat1 V c).arrAt 2 cfg1.N = V c (Pipeline.arrRef spec1 2) := ((dat1 V c).arrAt_in 2 rfl _).trans (A_eq1 V c 2)
  rw [arrBufs1_eq, arrays1_eq, bigSep_W1, share1_0, share1_1, share1_2, share1_3, h2, h3]
  simp only [e0, e1, e2]
  show (iprop((((c.tc : Thread nD τ).loc main_v2) ↦{fullShare.left} V c main_v2) ∗ (((c.tc : Thread nD τ).loc main_v2) ↦{fullShare.right.left} V c main_v2)
        ∗ (((c.tc : Thread nD τ).loc main_v2) ↦{fullShare.right.right} V c main_v2) ∗ (((c.tc : Thread nD τ).loc main_v3) ↦{fullShare} (dat1 V c).arrAt 3 cfg1.N)) : sProp 𝕄)
    ⊢ iprop((((c.tc : Thread nD τ).loc main_v2) ↦{fullShare} V c main_v2) ∗ (((c.tc : Thread nD τ).loc main_v3) ↦{fullShare} (dat1 V c).arrAt 3 cfg1.N))
  iintro ⟨Hl, Hrl, Hrr, H3⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H3

end Shared

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

set_option backward.isDefEq.respectTransparency.types false in
/-- The attention region: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ cfgs 1 winFacts₀1.arr_unscoped c (V3 m ρ c)]
      exact sep_mono (arrays1_split (V3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs (Ix := Unit) (Name := ℕ) (U := UR sig nD τ) (Lvl := ℕ) c (V4 m ρ c) : sProp 𝕄) := by
      rw [Pipeline.unscopedBufs_split₀ cfgs 1 winFacts₀1.arr_unscoped c (V4 m ρ c)]
      refine sep_mono (arrays1_join (V3 m ρ) c (V4 m ρ c) (W4_of_ne m ρ c main_v2 (by decide)) (W4_main_v3 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state the result array holds what the attention region's write-backs leave and both
    arguments hold what they held at launch. -/
theorem run : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_arg0 (by decide))).trans (W4_main_arg0 m ρ c),
       (h c _ (mem_uc main_arg1 (by decide))).trans (W4_main_arg1 m ρ c)⟩)

end Cert.Kernel.Whole

end
-- ==== Proof.Region0.lean ====
/-
  The projection region (the first kernel of the program), at any float instance.

  At grid point `t` the body reads a block of 512 rows of the flattened activations `x` and the whole weight array
  `w` (three 1024 x 1024 matrices), and writes three slabs of 512 x 1024 into its output block: slab `p` is the matrix
  product of the row block with `w p`. The three stores tile the output block, so what the block holds after the body
  is the composition of the three stores over the two input blocks (`out0_2`). This module states that, proves the
  body's triple, and packages the region's proof data and its body obligation at the contents `V` the region is
  entered from.
-/
import proofs.«114428_j86569360818603_2_alg».proof.Proof.Gen.KernelIdeal.Launch
import proofs.«114428_j86569360818603_2_alg».proof.Proof.Gen.KernelIdeal.Skeleton
import proofs.«114428_j86569360818603_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` is in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights, fetched once, are in their staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rx : Rect S512x1024 := Rect.unit (s := S512x1024) ![0, 0] S512x1024.size inb_S512x1024_S512x1024_0_0
abbrev rw0 : Rect S3x1024x1024 := Rect.unit (s := S3x1024x1024) ![0, 0, 0] S1x1024x1024.size inb_S3x1024x1024_S1x1024x1024_0_0_0
abbrev rw1 : Rect S3x1024x1024 := Rect.unit (s := S3x1024x1024) ![1, 0, 0] S1x1024x1024.size inb_S3x1024x1024_S1x1024x1024_1_0_0
abbrev rw2 : Rect S3x1024x1024 := Rect.unit (s := S3x1024x1024) ![2, 0, 0] S1x1024x1024.size inb_S3x1024x1024_S1x1024x1024_2_0_0
abbrev ro0 : Rect S3x512x1024 := Rect.unit (s := S3x512x1024) ![0, 0, 0] S1x512x1024.size inb_S3x512x1024_S1x512x1024_0_0_0
abbrev ro1 : Rect S3x512x1024 := Rect.unit (s := S3x512x1024) ![1, 0, 0] S1x512x1024.size inb_S3x512x1024_S1x512x1024_1_0_0
abbrev ro2 : Rect S3x512x1024 := Rect.unit (s := S3x512x1024) ![2, 0, 0] S1x512x1024.size inb_S3x512x1024_S1x512x1024_2_0_0

/-! ## What the body leaves in the output block -/

/-- The output block after the body: slab `p` is the product of the row block with weight matrix `p`; the three
    stores as pieces, the last one first. -/
def out0_2 (x0 : Vec F S512x1024 .f32) (x1 : Vec F S3x1024x1024 .f32) : Vec F S3x512x1024 .bf16 :=
  View.canon [⟨ro2, k0_pay4 (View.ld x0 rx) (View.ld x1 rw2)⟩,
    ⟨ro1, k0_pay3 (View.ld x0 rx) (View.ld x1 rw1)⟩,
    ⟨ro0, k0_pay2 (View.ld x0 rx) (View.ld x1 rw0)⟩]

/-- The three slabs tile the block. -/
theorem cover0_2 (p0 p1 p2 : Vec F S1x512x1024 .bf16) (y : S3x512x1024.Idx) :
    ∃ pc ∈ ([⟨ro2, p0⟩, ⟨ro1, p1⟩, ⟨ro0, p2⟩] : List (View.Piece (Elt F) S3x512x1024 .bf16)), y ∈ pc.1.set :=
  View.cover_of_tiled [⟨ro2, p0⟩, ⟨ro1, p1⟩, ⟨ro0, p2⟩] S1x512x1024.size (by rfl) y

/-! ## The body's triple -/

set_option maxHeartbeats 1000000 in
/-- The body on whole staging buffers, the inputs' at `x0`, `x1` and the output's at anything, runs to the
    continuation holding the inputs' as they were and the output's at `out0_2 x0 x1`. -/
theorem sound_kernel0 (c : Dev nD) (E : Set ℕ) (i : grid0.Coords)
    (arg1 : Memref sig .tc .vmem S512x1024 .f32) (harg1 : arg1.IsWhole)
    (arg2 : Memref sig .tc .vmem S3x1024x1024 .f32) (harg2 : arg2.IsWhole)
    (arg3 : Memref sig .tc .vmem S3x512x1024 .bf16) (harg3 : arg3.IsWhole)
    (x0 : Vec F S512x1024 .f32) (x1 : Vec F S3x1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _)

/-! ## The region's proof data -/

/-- The arrays as the region finds them; after the body at point `t` each input's buffer at its block and the
    output's at `out0_2` of the input blocks; the scoped rest and the generator register pass through; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region0

end
-- ==== Proof.Region1Runs.lean ====
/-
  The attention region (the second kernel of the program): what its three control cases share.

  The grid is (batch, query tile, key tile) = (4, 2, 8), the key tile innermost. At key tile 0 the body resets its
  three scratch arrays (the running row maximum, the running denominator, the running numerator); at every key tile
  it folds the tile's scores into them; at key tile 7 it divides the numerator by the denominator into the output
  block. So a point is in one of three cases: the first key tile (reset, no output), a middle one (neither), the
  last one (output). This module has the windows' blocks, the two conditions in closed form over the grid, where
  the output window is idle, and the names of the staging and scratch buffers the three runs are stated over.
-/
import proofs.«114428_j86569360818603_2_alg».proof.Proof.Gen.KernelIdeal.Launch
import proofs.«114428_j86569360818603_2_alg».proof.Proof.Gen.KernelIdeal.Skeleton
import proofs.«114428_j86569360818603_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is in its staging buffer at every point (it is fetched when the query tile changes). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key block is in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value block is in its staging buffer at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first key tile", as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last key tile". -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first key tile nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Nor at a middle key tile. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last key tile the output block is stored. -/
theorem liveAt1_3_C : ∀ t : Fin cfg1.N, ¬cond1_0 (grid1.coords t) → cond1_1 (grid1.coords t) → cfg1.idle 3 (grid1.coords t) = false := by decide +kernel

/-! ## The buffers the runs are stated over -/

/-- One staging buffer of the output window, through which its contents are stated. -/
abbrev VO1_3 : View sig .tc .vmem S1x1024x1024 .f32 := (Memref.whole cc1_stg3_0 : Memref sig .tc .vmem S1x1024x1024 .f32).view
/-- Each window's current staging memref at point `t`, as the pipeline passes it, and its wholeness. -/
abbrev ms1_0 (t : Fin cfg1.N) : Memref sig .tc .vmem S1x1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch arrays: the running row maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

end Cert.KernelIdeal.Region1

end
-- ==== Proof.Region1RunA.lean ====
/-
  The attention body, run whole, in the case "first key tile: the scratch arrays are reset, nothing is stored into the output block".
-/
import proofs.«114428_j86569360818603_2_alg».proof.Proof.Region1Runs

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three scratch arrays, as pieces (the last store
    first), in the case "first key tile: the scratch arrays are reset, nothing is stored into the output block", with the proof that the body, run on whole buffers holding the stated contents,
    reaches its continuation with the inputs as they were and each stored buffer with those pieces written. The
    pieces are found by the run. -/
noncomputable def kernelRun1_A (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Region1

end
-- ==== Proof.Region1RunB.lean ====
/-
  The attention body, run whole, in the case "middle key tile: no reset, nothing is stored into the output block".
-/
import proofs.«114428_j86569360818603_2_alg».proof.Proof.Region1RunA

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three scratch arrays, as pieces (the last store
    first), in the case "middle key tile: no reset, nothing is stored into the output block", with the proof that the body, run on whole buffers holding the stated contents,
    reaches its continuation with the inputs as they were and each stored buffer with those pieces written. The
    pieces are found by the run. -/
noncomputable def kernelRun1_B (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Region1

end
-- ==== Proof.Region1RunC.lean ====
/-
  The attention body, run whole, in the case "last key tile: no reset, the quotient is stored into the output block".
-/
import proofs.«114428_j86569360818603_2_alg».proof.Proof.Region1RunB

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in the output block and in the three scratch arrays, as pieces (the last store
    first), in the case "last key tile: no reset, the quotient is stored into the output block", with the proof that the body, run on whole buffers holding the stated contents,
    reaches its continuation with the inputs as they were and each stored buffer with those pieces written. The
    pieces are found by the run. -/
noncomputable def kernelRun1_C (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Region1

end
-- ==== Proof.Region1.lean ====
/-
  The attention region: what its output block and its three scratch arrays hold after every grid point, the region's
  invariant and proof data, and its body obligation.

  The three runs (first, middle, last key tile) each leave pieces in the buffers they store into; read back, those
  are the buffers' contents after the point. `outsAt1` chains them along the grid: a middle or last key tile starts
  from what the point before left in the scratch arrays, a first key tile resets them. The invariant between points
  holds the scratch arrays at those contents.
-/
import proofs.«114428_j86569360818603_2_alg».proof.Proof.Region1RunC

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- At a first key tile nothing is stored into the output block: a placeholder nothing consults. -/
def out1_A_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- At a first key tile the stores into scratch array 0 cover it. -/
theorem scover1_A_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What a first key tile leaves in scratch array 0. -/
def sout1_A_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- At a first key tile the stores into scratch array 1 cover it. -/
theorem scover1_A_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What a first key tile leaves in scratch array 1. -/
def sout1_A_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- At a first key tile the stores into scratch array 2 cover it. -/
theorem scover1_A_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What a first key tile leaves in scratch array 2. -/
def sout1_A_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At a middle key tile nothing is stored into the output block: a placeholder nothing consults. -/
def out1_B_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- At a middle key tile the stores into scratch array 0 cover it. -/
theorem scover1_B_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What a middle key tile leaves in scratch array 0. -/
def sout1_B_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- At a middle key tile the stores into scratch array 1 cover it. -/
theorem scover1_B_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What a middle key tile leaves in scratch array 1. -/
def sout1_B_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- At a middle key tile the stores into scratch array 2 cover it. -/
theorem scover1_B_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What a middle key tile leaves in scratch array 2. -/
def sout1_B_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- At a last key tile the store into the output block covers it. -/
theorem cover1_C_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What a last key tile leaves in the output block. -/
def out1_C_3 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- At a last key tile the stores into scratch array 0 cover it. -/
theorem scover1_C_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What a last key tile leaves in scratch array 0. -/
def sout1_C_0 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- At a last key tile the stores into scratch array 1 cover it. -/
theorem scover1_C_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What a last key tile leaves in scratch array 1. -/
def sout1_C_1 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- At a last key tile the stores into scratch array 2 cover it. -/
theorem scover1_C_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What a last key tile leaves in scratch array 2. -/
def sout1_C_2 (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the output block and the scratch arrays hold after each point -/

/-- After the body at position `n`: the output block, then the running maximum, denominator and numerator. The case
    is read off the position (first, middle or last key tile); a middle or last tile starts from what the point before
    left in the scratch arrays. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first key tile. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle key tile, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last key tile, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- A scoped buffer of the core at some contents. -/
abbrev rb (c : Dev nD) (b : Ref sig .tc) : sProp 𝕄 :=
  iprop(∃ f : Buf (Elt F) ((c : Thread nD τ).loc b), ((c : Thread nD τ).loc b) ↦{fullShare} f)

/-- What the launch hands the region beside its windows: the other kernel's staging buffers and the three scratch
    arrays, each at some contents, and the generator register. -/
theorem PhiA1_eq (c : Dev nD) :
    (Pipeline.ΦA spec1 c : sProp 𝕄)
      = iprop(iprop(rb (F := F) c cc0_stg0_0 ∗ rb (F := F) c cc0_stg0_1 ∗ rb (F := F) c cc0_stg1_0 ∗ rb (F := F) c cc0_stg2_0 ∗ rb (F := F) c cc0_stg2_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The invariant before position `n`: before the first point, what the launch hands over; afterwards the three
    scratch arrays at what the point before left in them. -/
def PhiS1 (c : Dev nD) : (n : ℕ) → n ≤ cfg1.N → sProp 𝕄
  | 0, _ => Pipeline.ΦA spec1 c
  | n + 1, hn => iprop(iprop(rb (F := F) c cc0_stg0_0 ∗ rb (F := F) c cc0_stg0_1 ∗ rb (F := F) c cc0_stg1_0 ∗ rb (F := F) c cc0_stg2_0 ∗ rb (F := F) c cc0_stg2_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rb (F := F) c cc0_stg0_0 ∗ rb (F := F) c cc0_stg0_1 ∗ rb (F := F) c cc0_stg1_0 ∗ rb (F := F) c cc0_stg2_0 ∗ rb (F := F) c cc0_stg2_1 ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(rb (F := F) c cc0_stg0_0 ∗ rb (F := F) c cc0_stg0_1 ∗ rb (F := F) c cc0_stg1_0 ∗ rb (F := F) c cc0_stg2_0 ∗ rb (F := F) c cc0_stg2_1 ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The region's proof data -/

/-- The arrays as the region finds them; after the body at point `t` each input's buffer at its block and the output
    block at `outsAt1`'s first component; the invariant `PhiS1`; the three input windows read one array, so they hold it
    at three shares that make up the whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the position says which case the point is in; the
    invariant hands the body the scratch arrays at what the point before left (at anything before a first key tile's
    reset) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨R0, R1, R2, R3, R4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [R0 R1 R2 R3 R4 HS0 HS1 HS2 Hg]
        · isplitl [R0 R1 R2 R3 R4 HS0 HS1 HS2]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, R3, R4, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [R0 R1 R2 R3 R4 HS0 HS1 HS2 Hg]
        · isplitl [R0 R1 R2 R3 R4 HS0 HS1 HS2]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      have hz : t.val ≠ 0 := by omega
      rw [PhiS1_castSucc V c t, PhiS1_pos V c _ _ hz]
      iintro ⟨⟨⟨R0, R1, R2, R3, R4, HS0, HS1, HS2⟩, Hg⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [R0 R1 R2 R3 R4 HS0 HS1 HS2 Hg]
      · isplitl [R0 R1 R2 R3 R4 HS0 HS1 HS2]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      have hz : t.val ≠ 0 := by omega
      rw [PhiS1_castSucc V c t, PhiS1_pos V c _ _ hz]
      iintro ⟨⟨⟨R0, R1, R2, R3, R4, HS0, HS1, HS2⟩, Hg⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [R0 R1 R2 R3 R4 HS0 HS1 HS2 Hg]
      · isplitl [R0 R1 R2 R3 R4 HS0 HS1 HS2]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the scratch arrays' contents are
    forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨R0, R1, R2, R3, R4, HS0, HS1, HS2⟩, Hg⟩
  isplitl [R0 R1 R2 R3 R4 HS0 HS1 HS2]
  · isplitl [R0]; · iexact R0
    isplitl [R1]; · iexact R1
    isplitl [R2]; · iexact R2
    isplitl [R3]; · iexact R3
    isplitl [R4]; · iexact R4
    isplitl [HS0]; · iexists _; iexact HS0
    isplitl [HS1]; · iexists _; iexact HS1
    iexists _; iexact HS2
  iexact Hg

end Cert.KernelIdeal.Region1

end
-- ==== Proof.Whole.lean ====
/-
  The whole program run: the two reshapes and the two kernel regions as four segments, from the launch to the
  return.

  Between two segments every unscoped buffer of the core is held at known contents: the launch memory, then each
  reshape's result written, then each region's result array at what its write-backs leave. The projection region's
  windows read three distinct arrays. The attention region's three input windows read ONE array, the reshaped
  projections: its ownership is divided into three shares at the region's entry and put together again at its exit,
  the array unchanged. The run's post names the result array's final contents and says both arguments end as
  launched; the frame claims and the value claim both follow from it.
-/
import proofs.«114428_j86569360818603_2_alg».proof.Proof.Region0
import proofs.«114428_j86569360818603_2_alg».proof.Proof.Region1
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Region0 Cert.KernelIdeal.Region1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two segments -/

/-- Core `c`'s buffers at launch. -/
abbrev W0 : Dev nD → Valuation τ sig (Elt F) := fun c b => (s₀ m ρ).mem ((c : Dev nD), b)
/-- After the reshape of `x` (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshape of the projections (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: the result array at what the write-backs leave, every other buffer as entered
    (the three input windows read one array and leave it as it was). -/
def W4 (c : Dev nD) : Valuation τ sig (Elt F) :=
  Function.update (W3 m ρ c) (Proc.devRef .tc main_v3) ((dat1 (V3 m ρ) c).arrAt 3 cfg1.N)
abbrev V4 : (c : Dev nD) → (b : Ref sig .tc) → Buf (Elt F) ((c : Thread nD τ).loc b) := fun c b => W4 m ρ c b
theorem W4_main_v3 (c : Dev nD) : W4 m ρ c (Proc.devRef .tc main_v3) = (dat1 (V3 m ρ) c).arrAt 3 cfg1.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## One array read through three windows: dividing its ownership and putting it together again -/

section Shared

variable (V : (c : Dev nD) → (b : Ref sig .tc) → Buf (Elt F) ((c : Thread nD τ).loc b))

/-- The attention region's arrays, window by window, as plain buffer ownership at the windows' shares. -/
theorem arrays1_eq (c : Dev nD) (Fw : (w : Fin cfg1.W) → Buf (Elt F) ((cfg1.win w).arr.view.loc (c.tc : Thread nD τ))) :
    (dat1 V c).arrays Fw
      = bigSep Finset.univ fun w => ((((c.tc : Thread nD τ).loc (Pipeline.arrRef spec1 w)) ↦{(dat1 V c).share w} Fw w : sProp 𝕄)) := by
  unfold Dat.arrays
  exact bigSep_congr fun w _ => by rw [(arr_whole1 w).set_eq_univ]

theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The two buffers behind the region's four windows. -/
theorem arrBufs1_eq (c : Dev nD) (V' : (b : Ref sig .tc) → Buf (Elt F) ((c : Thread nD τ).loc b)) :
    (Pipeline.arrBufs spec1 c V' : sProp 𝕄)
      = iprop((((c.tc : Thread nD τ).loc main_v2) ↦{fullShare} V' main_v2) ∗ (((c.tc : Thread nD τ).loc main_v3) ↦{fullShare} V' main_v3)) := by
  unfold Pipeline.arrBufs
  rw [bigSep_eq_bigSepL_of_eq [main_v2, main_v3] (by decide) (by decide)]
  rfl

/-- At the attention region's entry: the reshaped projections and the result array, each held whole, make the
    region's arrays — the projections at three shares, one per input window. -/
theorem arrays1_split (c : Dev nD) :
    (Pipeline.arrBufs spec1 c (V c) : sProp 𝕄) ⊢ (dat1 V c).arrays ((dat1 V c).arrAt · 0) := by
  rw [arrBufs1_eq, arrays1_eq, bigSep_W1, share1_0, share1_1, share1_2, share1_3]
  simp only [show ∀ w, (dat1 V c).arrAt w 0 = (dat1 V c).A w from fun _ => rfl, A_eq1]
  show iprop((((c.tc : Thread nD τ).loc main_v2) ↦{fullShare} V c main_v2) ∗ (((c.tc : Thread nD τ).loc main_v3) ↦{fullShare} V c main_v3))
    ⊢ (iprop((((c.tc : Thread nD τ).loc main_v2) ↦{fullShare.left} V c main_v2) ∗ (((c.tc : Thread nD τ).loc main_v2) ↦{fullShare.right.left} V c main_v2)
        ∗ (((c.tc : Thread nD τ).loc main_v2) ↦{fullShare.right.right} V c main_v2) ∗ (((c.tc : Thread nD τ).loc main_v3) ↦{fullShare} V c main_v3)) : sProp 𝕄)
  iintro ⟨H2, H3⟩
  ihave Ha := (pointsTo_share (PosShare.mem_left_op_right fullShare)).1 $$ H2
  icases Ha with ⟨Hl, Hr⟩
  ihave Hb := (pointsTo_share (PosShare.mem_left_op_right fullShare.right)).1 $$ Hr
  icases Hb with ⟨Hrl, Hrr⟩
  isplitl [Hl]; · iexact Hl
  isplitl [Hrl]; · iexact Hrl
  isplitl [Hrr]; · iexact Hrr
  iexact H3

/-- At its exit: the three shares of the projections, unchanged, are the whole array again, and the result array is
    at what the write-backs left. -/
theorem arrays1_join (c : Dev nD) (V' : (b : Ref sig .tc) → Buf (Elt F) ((c : Thread nD τ).loc b))
    (h2 : V' main_v2 = V c main_v2) (h3 : V' main_v3 = (dat1 V c).arrAt 3 cfg1.N) :
    (dat1 V c).arrays ((dat1 V c).arrAt · cfg1.N) ⊢ (Pipeline.arrBufs spec1 c V' : sProp 𝕄) := by
  have e0 : (dat1 V c).arrAt 0 cfg1.N = V c (Pipeline.arrRef spec1 0) := ((dat1 V c).arrAt_in 0 rfl _).trans (A_eq1 V c 0)
  have e1 : (dat1 V c).arrAt 1 cfg1.N = V c (Pipeline.arrRef spec1 1) := ((dat1 V c).arrAt_in 1 rfl _).trans (A_eq1 V c 1)
  have e2 : (dat1 V c).arrAt 2 cfg1.N = V c (Pipeline.arrRef spec1 2) := ((dat1 V c).arrAt_in 2 rfl _).trans (A_eq1 V c 2)
  rw [arrBufs1_eq, arrays1_eq, bigSep_W1, share1_0, share1_1, share1_2, share1_3, h2, h3]
  simp only [e0, e1, e2]
  show (iprop((((c.tc : Thread nD τ).loc main_v2) ↦{fullShare.left} V c main_v2) ∗ (((c.tc : Thread nD τ).loc main_v2) ↦{fullShare.right.left} V c main_v2)
        ∗ (((c.tc : Thread nD τ).loc main_v2) ↦{fullShare.right.right} V c main_v2) ∗ (((c.tc : Thread nD τ).loc main_v3) ↦{fullShare} (dat1 V c).arrAt 3 cfg1.N)) : sProp 𝕄)
    ⊢ iprop((((c.tc : Thread nD τ).loc main_v2) ↦{fullShare} V c main_v2) ∗ (((c.tc : Thread nD τ).loc main_v3) ↦{fullShare} (dat1 V c).arrAt 3 cfg1.N))
  iintro ⟨Hl, Hrl, Hrr, H3⟩
  isplitl [Hl Hrl Hrr]
  · iapply (pointsTo_share (PosShare.mem_left_op_right fullShare)).2
    isplitl [Hl]; · iexact Hl
    iapply (pointsTo_share (PosShare.mem_left_op_right fullShare.right)).2
    isplitl [Hrl]; · iexact Hrl
    iexact Hrr
  iexact H3

end Shared

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hrest1 (c : Dev nD) : ∀ b, b ∉ Finset.univ.image (Pipeline.arrRef spec1) → V4 m ρ c b = V3 m ρ c b :=
  fun b hb => W4_of_ne m ρ c b fun e => hb (Finset.mem_image.mpr ⟨3, Finset.mem_univ _, e.symm⟩)

set_option backward.isDefEq.respectTransparency.types false in
/-- The attention region: entered from every unscoped buffer at `W3`, left at `W4`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs (Ix := Unit) (Name := ℕ) (U := UR sig nD τ) (Lvl := ℕ) c (V3 m ρ c) : sProp 𝕄)
        ⊢ iprop((pdats m ρ 1 c).arrays ((pdats m ρ 1 c).arrAt · 0) ∗ Pipeline.unscopedRest spec1 c (V3 m ρ c)) := by
      rw [Pipeline.unscopedBufs_split₀ cfgs 1 winFacts₀1.arr_unscoped c (V3 m ρ c)]
      exact sep_mono (arrays1_split (V3 m ρ) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs (Ix := Unit) (Name := ℕ) (U := UR sig nD τ) (Lvl := ℕ) c (V4 m ρ c) : sProp 𝕄) := by
      rw [Pipeline.unscopedBufs_split₀ cfgs 1 winFacts₀1.arr_unscoped c (V4 m ρ c)]
      refine sep_mono (arrays1_join (V3 m ρ) c (V4 m ρ c) (W4_of_ne m ρ c main_v2 (by decide)) (W4_main_v3 m ρ c)) (Entails.of_eq ?_)
      unfold Pipeline.unscopedRest
      exact bigSep_congr fun b hb => by rw [hrest1 m ρ c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and in every final state the result array holds what the attention region's write-backs leave and both
    arguments hold what they held at launch. -/
theorem run : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_main_v3 m ρ c),
       (h c _ (mem_uc main_arg0 (by decide))).trans (W4_main_arg0 m ρ c),
       (h c _ (mem_uc main_arg1 (by decide))).trans (W4_main_arg1 m ρ c)⟩)

end Cert.KernelIdeal.Whole

end
-- ==== Proof.Region1Pieces.lean ====
/-
  What each case of the attention body leaves in the scratch arrays and in the output block, as terms of the body's
  own arithmetic.

  Each run found the pieces its stores leave. Read back, a scratch array after a middle or last key tile is one
  store's value computed from the blocks and from what the scratch arrays held before; after a first key tile it is
  the same value computed from the reset values (the loads after the reset read the reset back). The output block
  after a last key tile is the quotient of the numerator and the denominator the same run has just stored.
-/
import proofs.«114428_j86569360818603_2_alg».proof.Proof.Region1
import Idealize.ShloMosaic.Lib.Pipeline.Value

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle key tile leaves the new running maximum. -/
theorem max_B (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 x0 x1 x2 xs0 xs1 xs2 = k1_pay3 (k1_pay10 x0 x1 xs0) := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  rw [View.canon_unit_zero hz2]
  simp only [View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A middle key tile leaves the new running denominator. -/
theorem den_B (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 x0 x1 x2 xs0 xs1 xs2 = k1_pay1 (k1_pay13 x0 x1 xs0 xs0 xs1) := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  rw [View.canon_unit_zero hz2]
  simp only [View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A middle key tile leaves the new running numerator. -/
theorem num_B (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 x0 x1 x2 xs0 xs1 xs2 = k1_pay2 (k1_pay8 x2) (k1_pay11 x0 x1 xs0 xs0) (k1_pay12 x0 x1 xs0) xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  rw [View.canon_unit_zero hz2]
  simp only [View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A last key tile leaves the new running maximum. -/
theorem max_C (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 hc0 hc1 x0 x1 x2 xs0 xs1 xs2 = k1_pay3 (k1_pay10 x0 x1 xs0) := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A last key tile leaves the new running denominator. -/
theorem den_C (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 hc0 hc1 x0 x1 x2 xs0 xs1 xs2 = k1_pay1 (k1_pay13 x0 x1 xs0 xs0 xs1) := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A last key tile leaves the new running numerator. -/
theorem num_C (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 hc0 hc1 x0 x1 x2 xs0 xs1 xs2 = k1_pay2 (k1_pay8 x2) (k1_pay11 x0 x1 xs0 xs0) (k1_pay12 x0 x1 xs0) xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz2]
  simp only [View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A last key tile leaves in the output block the quotient of the numerator by the denominator it has just stored. -/
theorem out_C (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1x1024x1024 .bf16) (x1 : Vec F S1x1x256x1024 .bf16) (x2 : Vec F S1x1x256x1024 .bf16)
    (xs0 : Vec F S1024x1 .f32) (xs1 : Vec F S1024x1 .f32) (xs2 : Vec F S1024x1024 .f32) :
    out1_C_3 c i arg3 harg3 arg4 harg4 arg5 harg5 arg6 harg6 arg7 harg7 arg8 harg8 arg9 harg9 hc0 hc1 x0 x1 x2 xs0 xs1 xs2 = k1_pay4 (k1_pay2 (k1_pay8 x2) (k1_pay11 x0 x1 xs0 xs0) (k1_pay12 x0 x1 xs0) xs2) (k1_pay1 (k1_pay13 x0 x1 xs0 xs0 xs1)) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz3]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A first key tile leaves the running maximum computed from the reset value. -/
theorem max_A (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) :
    sout1_A_0 c i arg3 harg3 arg4 harg4 arg5 harg5 arg6 harg6 arg7 harg7 arg8 harg8 arg9 harg9 hc0 hc1 x0 x1 x2 = k1_pay3 (k1_pay10 x0 x1 (k1_pay5 (F := F))) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A first key tile leaves the running denominator computed from the reset values. -/
theorem den_A (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) :
    sout1_A_1 c i arg3 harg3 arg4 harg4 arg5 harg5 arg6 harg6 arg7 harg7 arg8 harg8 arg9 harg9 hc0 hc1 x0 x1 x2 = k1_pay1 (k1_pay13 x0 x1 (k1_pay5 (F := F)) (k1_pay5 (F := F)) (k1_pay6 (F := F))) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]
/-- A first key tile leaves the running numerator computed from the reset values. -/
theorem num_A (c : Dev nD) (i : grid1.Coords) (arg3 : Memref sig .tc .vmem S1x1x1024x1024 .bf16) (harg3 : arg3.IsWhole) (arg4 : Memref sig .tc .vmem S1x1x256x1024 .bf16) (harg4 : arg4.IsWhole) (arg5 : Memref sig .tc .vmem S1x1x256x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1x1024x1024 .bf16) (x1 : Vec F S1x1x256x1024 .bf16) (x2 : Vec F S1x1x256x1024 .bf16) :
    sout1_A_2 c i arg3 harg3 arg4 harg4 arg5 harg5 arg6 harg6 arg7 harg7 arg8 harg8 arg9 harg9 hc0 hc1 x0 x1 x2 = k1_pay2 (k1_pay8 x2) (k1_pay11 x0 x1 (k1_pay5 (F := F)) (k1_pay5 (F := F))) (k1_pay12 x0 x1 (k1_pay5 (F := F))) (k1_pay7 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, harg7.read_unread, harg8.read_unread, harg9.read_unread, View.ld_unit_zero (S := S1x1x1024x1024) hz4, View.ld_unit_zero (S := S1x1x256x1024) hz4, View.ld_unit_zero (S := S1024x1) hz2, View.ld_unit_zero (S := S1024x1024) hz2, View.ld_unit_zero (S := S1x1024x1024) hz3]

end Cert.KernelIdeal.Region1

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«114428_j86569360818603_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«114428_j86569360818603_2_alg».proof.Proof.LibDenseRows
import proofs.«114428_j86569360818603_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibSoftmaxRows.lean ====
/-
  General lemmas for kernels that pool over a leading axis and take a softmax along the last axis, read at the exact
  (extended-real) instance. Generic in the extents.

  * `leadSum_apply`: a sum of a [C, A, B] array along its FIRST axis is at (p, q) the plain sum over c of the array at (c, p, q).
  * `leadMax_apply`: a maximum of a [C, A, B] array along its first axis, from a starting pattern, is at (p, q) the fold of
    max from that pattern's value over c of the array at (c, p, q).
  * `rowMax_apply`: a maximum of an [A, B] array along its last axis is at p the fold of max over k of the array at (p, k).
  * `keepdimsMax_apply`: the same kept as an [A, 1] column, at (p, u).
  * `broadcastTo_1ab_cab_apply`: a [1, A, B] array repeated C times along the first axis reads, at (c, p, q), the array at (0, p, q).
  * `softmaxRows_apply`: the softmax of an [A, B] array along its last axis as a kernel body spells it — row maximum from minus
    infinity kept as a column and repeated along the rows, subtracted, exponentiated, the row sum of that kept as a column and
    repeated, the quotient — is at (p, q) exp (f (p, q) − M) / ∑ₖ exp (f (p, k) − M), M the fold of max over the row.
-/
import Idealize.ShloMosaic.Lib.ValueIdx
import Idealize.ShloMosaic.Lib.ValueLayout
import Idealize.ShloMosaic.Lib.Pipeline.Value
import Idealize.ShloMosaic.PureOps.Ideal.Laws
import proofs.«114428_j86569360818603_2_alg».proof.Proof.LibColumns

noncomputable section

open scoped BigOperators

namespace Cert.SoftmaxRows

open Idealize.ShloMosaic Idealize.ShloMosaic.ValueIdx

/-! ## Pooling over the first axis of a rank-three array -/

/-- The sum of a [C, A, B] array along its first axis, at (p, q): the sum over c of the array at (c, p, q). -/
theorem leadSum_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.add.neutral φ hφ)
    (p : Fin A) (q : Fin B) :
    multiReduction .add [0] ⟨2, ![A, B]⟩ src acc h hφ hacc (ix2 p q) = ∑ c : Fin C, src (ix3 c p q) := by
  refine (Ideal.multiReduction_add_single src acc h hφ hacc (ix2 p q)).trans ?_
  refine Finset.sum_congr rfl fun k _ => congrArg src (funext fun d => Fin.ext ?_)
  rw [h.lift_val]
  match d with
  | ⟨0, _⟩ => rfl
  | ⟨1, _⟩ => rfl
  | ⟨2, _⟩ => rfl

/-- The maximum of a [C, A, B] array along its first axis, at (p, q): the fold of max, from the starting pattern's value,
    over c of the array at (c, p, q). -/
theorem leadMax_apply {C A B : ℕ} {φ : FTy} (src : FVec Ideal ⟨3, ![C, A, B]⟩ φ) (acc : BitVec φ.bits)
    (h : (⟨3, ![C, A, B]⟩ : Shape).Reduces [0] ⟨2, ![A, B]⟩) (hφ : FKind.Formats φ) (hacc : acc = FKind.maximumf.neutral φ hφ)
    (p : Fin A) (q : Fin B) :
    multiReduction .maximumf [0] ⟨2, ![A, B]⟩ src acc h hφ hacc (ix2 p q)
      = (Finset.univ : Finset (Fin C)).fold max (Ideal.ofBits φ acc) (fun c => src (ix3 c p q)) := by
  refine (Ideal.multiReduction_maximumf_single src acc h hφ hacc (ix2 p q)).trans ?_
  refine congrArg ((Finset.univ : Finset (Fin C)).fold max (Ideal.ofBits φ acc)) (funext fun k => congrArg src (funext fun d => Fin.ext ?_))
  rw [h.lift_val]
  match d with
  | ⟨0, _⟩ => rfl
  | ⟨1, _⟩ => rfl
  | ⟨2, _⟩ => rfl

/-! ## A row's maximum -/

/-- The maximum of an [A, B] array along its last axis, at p: the fold of max over k of the array at (p, k). -/
theorem rowMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  refine (Ideal.multiReduction_maximumf_single src acc h hφ hacc (ix1 p)).trans ?_
  refine congrArg ((Finset.univ : Finset (Fin B)).fold max (Ideal.ofBits φ acc)) (funext fun k => congrArg src (funext fun d => Fin.ext ?_))
  rw [h.lift_val]
  match d with
  | ⟨0, _⟩ => rfl
  | ⟨1, _⟩ => rfl

/-- The same kept as an [A, 1] column: at (p, u) the fold of max over the row p. -/
theorem keepdimsMax_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.maximumf.neutral φ hφ)
    (hs : (⟨1, ![A]⟩ : Shape).ShapeCasts ⟨2, ![A, 1]⟩) (p : Fin A) (u : Fin 1) :
    shapeCast ⟨2, ![A, 1]⟩ (multiReduction .maximumf [1] ⟨1, ![A]⟩ src acc h hφ hacc) hs (ix2 p u)
      = (Finset.univ : Finset (Fin B)).fold max (Ideal.ofBits φ acc) (fun k => src (ix2 p k)) :=
  (Cert.DenseRows.shapeCast_a_a1_apply _ hs p u).trans (rowMax_apply src acc h hφ hacc p)

/-! ## One plane repeated along a new first axis -/

/-- A [1, A, B] array broadcast to [C, A, B] reads, at (c, p, q), the array at (0, p, q). -/
theorem broadcastTo_1ab_cab_apply {α : Type} {C A B : ℕ} (v : (⟨3, ![1, A, B]⟩ : Shape).Idx → α)
    (h : (⟨3, ![1, A, B]⟩ : Shape).Broadcasts ⟨3, ![C, A, B]⟩) (c : Fin C) (p : Fin A) (q : Fin B) :
    broadcastTo ⟨3, ![C, A, B]⟩ v h (ix3 c p q) = v (ix3 (0 : Fin 1) p q) := by
  have hA : A = 1 → p.val = 0 := fun e => by have := p.isLt; omega
  have hB : B = 1 → q.val = 0 := fun e => by have := q.isLt; omega
  refine broadcastTo_apply v h (ix3 c p q) (ix3 (0 : Fin 1) p q) fun ax => ?_
  match ax with
  | ⟨0, _⟩ => rfl
  | ⟨1, _⟩ =>
    show p.val = if A = 1 then 0 else p.val
    split
    · exact hA ‹_›
    · rfl
  | ⟨2, _⟩ =>
    show q.val = if B = 1 then 0 else q.val
    split
    · exact hB ‹_›
    · rfl

/-! ## The softmax along the last axis, as a kernel body spells it -/

/-- Row maximum from minus infinity kept as a column and repeated along the rows, subtracted, exponentiated; the row sum of
    that kept as a column and repeated; the quotient. At (p, q): exp (f (p, q) − M) / ∑ₖ exp (f (p, k) − M), where M is the
    fold of max over row p from the starting pattern's value. -/
theorem softmaxRows_apply {A B : ℕ} (f : FVec Ideal ⟨2, ![A, B]⟩ .f32) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩)
    (p : Fin A) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (f (ix2 p q) - (Finset.univ : Finset (Fin B)).fold max (Ideal.ofBits .f32 lo) (fun k => f (ix2 p k))))
          (∑ k : Fin B, Ideal.exp (f (ix2 p k) - (Finset.univ : Finset (Fin B)).fold max (Ideal.ofBits .f32 lo) (fun k => f (ix2 p k)))) := by
  have hm : ∀ k : Fin B,
      broadcastTo ⟨2, ![A, B]⟩ (shapeCast ⟨2, ![A, 1]⟩ (multiReduction .maximumf [1] ⟨1, ![A]⟩ f lo hr hφ hmax) hs) hb (ix2 p k)
        = (Finset.univ : Finset (Fin B)).fold max (Ideal.ofBits .f32 lo) (fun k => f (ix2 p k)) := fun k =>
    (Cert.Columns.broadcastTo_a1_ab_apply _ hb p k).trans (keepdimsMax_apply f lo hr hφ hmax hs p 0)
  have he : ∀ k : Fin B,
      exp (subf f (broadcastTo ⟨2, ![A, B]⟩ (shapeCast ⟨2, ![A, 1]⟩ (multiReduction .maximumf [1] ⟨1, ![A]⟩ f lo hr hφ hmax) hs) hb)) (ix2 p k)
        = Ideal.exp (f (ix2 p k) - (Finset.univ : Finset (Fin B)).fold max (Ideal.ofBits .f32 lo) (fun k => f (ix2 p k))) := fun k =>
    congrArg (fun z => Ideal.exp (f (ix2 p k) - z)) (hm k)
  refine congrArg₂ Ideal.div (he q) ?_
  refine ((Cert.Columns.broadcastTo_a1_ab_apply _ hb p q).trans (Cert.Columns.keepdimsSum_apply _ _ hr hφ hadd hs p 0)).trans ?_
  exact Finset.sum_congr rfl fun k _ => he k

end Cert.SoftmaxRows

end
-- ==== Proof.LibAttnBody.lean ====
/-
  General lemmas for attention kernel bodies, read at the exact (extended-real) instance, one entry at a time. Generic in
  the extents.

  * `shapeCast_11ab_ab_apply`, `shapeCast_ab_11ab_apply`, `shapeCast_11a_1a_apply`: the reshapes [1, 1, a, b] → [a, b],
    [a, b] → [1, 1, a, b] and [1, 1, a] → [1, a] read at an index (a block that arrives with two leading unit axes).
  * `denseT_bias_apply`: an [M, K] array times the TRANSPOSE (taken in the body) of an [N, K] weight array into a zero
    accumulator, plus a [1, N] bias row repeated down the rows: at (p, j) the sum over k of left (p, k) · weights (j, k),
    plus the bias at j.
  * `scores_apply`: a product of a [1, 1, A, E] block with a [1, 1, E, B] block (unit axes dropped) into a zero
    accumulator, plus a [1, 1, B] mask row repeated down the rows: at (p, k) the sum over d of left (0, 0, p, d) ·
    right (0, 0, d, k), plus the mask at (0, 0, k).
  * `softmaxRows_apply_of`: the softmax of an [A, B] array along its last axis as a kernel body spells it (row maximum
    from a starting pattern kept as a column and repeated, subtracted, exponentiated, the row sum kept as a column and
    repeated, the quotient), the entries of row p given by a formula R: exp (R q − M) / ∑ₖ exp (R k − M), M the fold of max
    over R.
-/
import proofs.«114428_j86569360818603_2_alg».proof.Proof.LibPlainLayers
import proofs.«114428_j86569360818603_2_alg».proof.Proof.LibSoftmaxRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnBody

open Idealize.ShloMosaic Idealize.ShloMosaic.ValueIdx

/-! ## Reshapes that add or drop two leading unit axes -/

/-- A [1, 1, a, b] array recast as [a, b] reads, at (i, j), the array at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array recast as [1, 1, a, b] reads, at (u, v, i, j), the array at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A [1, 1, a] array recast as [1, a] reads, at (u, i), the array at (0, 0, i). -/
theorem shapeCast_11a_1a_apply {α : Type} {a : ℕ} (x : (⟨3, ![1, 1, a]⟩ : Shape).Idx → α)
    (h : (⟨3, ![1, 1, a]⟩ : Shape).ShapeCasts ⟨2, ![1, a]⟩) (u : Fin 1) (i : Fin a) :
    shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-! ## A dense layer whose weights arrive as [N, K] rows and are transposed in the body -/

/-- The product of an [M, K] array with the transpose of an [N, K] array into a zero accumulator, plus a [1, N] bias row
    repeated down the rows: at (p, j) the sum over k of left (p, k) times weights (j, k), plus the bias at j. -/
theorem denseT_bias_apply {M K N : ℕ} {φ₁ φ₂ : FTy} (D : DotDims ⟨2, ![M, K]⟩ ⟨2, ![K, N]⟩ ⟨2, ![M, N]⟩)
    (hD : D = DotDims.plain M K N) (prec : Option ContractPrecision)
    (h : FVec Ideal ⟨2, ![M, K]⟩ φ₁) (w : FVec Ideal ⟨2, ![N, K]⟩ φ₂)
    (ht : (⟨2, ![N, K]⟩ : Shape).Transposes [1, 0] ⟨2, ![K, N]⟩) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩)
    (p : Fin M) (j : Fin N) :
    addf (matmul D prec h (transpose ⟨2, ![K, N]⟩ [1, 0] w ht) (constant ⟨2, ![M, N]⟩ .f32 0x00000000#32))
        (broadcastTo ⟨2, ![M, N]⟩ (shapeCast ⟨2, ![1, N]⟩ b hc) hb) (ix2 p j)
      = (∑ k : Fin K, h (ix2 p k) * w (ix2 j k)) + b (ix2 (0 : Fin 1) j) :=
  congrArg₂ (· + ·)
    ((Cert.PlainLayers.plainMM_of_eq D hD prec h _ p j).trans
      (Finset.sum_congr rfl fun k _ => congrArg (h (ix2 p k) * ·) (transpose_ix2_apply w ht k j)))
    ((broadcastTo_1b_ab_apply _ hb p j).trans (congrFun (shapeCast_self b hc) _))

/-! ## The scores of a block and the softmax of rows given by a formula -/

/-- A product of two arrays that arrive with two leading unit axes, plus a mask row that arrives with two leading unit
    axes and is repeated down the rows: at (p, k) the sum over d of left (0, 0, p, d) times right (0, 0, d, k), plus the
    mask at (0, 0, k). -/
theorem scores_apply {A E B : ℕ} {φ₁ φ₂ : FTy} (D : DotDims ⟨2, ![A, E]⟩ ⟨2, ![E, B]⟩ ⟨2, ![A, B]⟩)
    (hD : D = DotDims.plain A E B) (prec : Option ContractPrecision)
    (x0 : FVec Ideal ⟨4, ![1, 1, A, E]⟩ φ₁) (h0 : (⟨4, ![1, 1, A, E]⟩ : Shape).ShapeCasts ⟨2, ![A, E]⟩)
    (x1 : FVec Ideal ⟨4, ![1, 1, E, B]⟩ φ₂) (h1 : (⟨4, ![1, 1, E, B]⟩ : Shape).ShapeCasts ⟨2, ![E, B]⟩)
    (x3 : FVec Ideal ⟨3, ![1, 1, B]⟩ .f32) (h3 : (⟨3, ![1, 1, B]⟩ : Shape).ShapeCasts ⟨2, ![1, B]⟩)
    (hb : (⟨2, ![1, B]⟩ : Shape).Broadcasts ⟨2, ![A, B]⟩) (p : Fin A) (k : Fin B) :
    addf (matmul D prec (shapeCast ⟨2, ![A, E]⟩ x0 h0) (shapeCast ⟨2, ![E, B]⟩ x1 h1) (constant ⟨2, ![A, B]⟩ .f32 0x00000000#32))
        (broadcastTo ⟨2, ![A, B]⟩ (shapeCast ⟨2, ![1, B]⟩ x3 h3) hb) (ix2 p k)
      = (∑ d : Fin E, x0 (ix4 (0 : Fin 1) (0 : Fin 1) p d) * x1 (ix4 (0 : Fin 1) (0 : Fin 1) d k))
          + x3 (ix3 (0 : Fin 1) (0 : Fin 1) k) :=
  congrArg₂ (· + ·)
    ((Cert.PlainLayers.plainMM_of_eq D hD prec _ _ p k).trans
      (Finset.sum_congr rfl fun d _ => congrArg₂ (· * ·) (shapeCast_11ab_ab_apply x0 h0 p d) (shapeCast_11ab_ab_apply x1 h1 d k)))
    ((broadcastTo_1b_ab_apply _ hb p k).trans (shapeCast_11a_1a_apply x3 h3 0 k))

/-- The softmax of an array along its last axis as a body spells it, the entries of row p given by a formula R. -/
theorem softmaxRows_apply_of {A B : ℕ} (f : FVec Ideal ⟨2, ![A, B]⟩ .f32) (R : Fin B → EReal) (p : Fin A)
    (hf : ∀ k, f (ix2 p k) = R k) (lo : BitVec FTy.f32.bits)
    (hr : (⟨2, ![A, B]⟩ : Shape).Reduces [1] ⟨1, ![A]⟩) (hφ : FKind.Formats .f32)
    (hmax : lo = FKind.maximumf.neutral .f32 hφ)
    (hadd : (0x00000000#32 : BitVec FTy.f32.bits) = FKind.add.neutral .f32 hφ)
    (hs : (⟨1, ![A]⟩ : Shape).ShapeCasts ⟨2, ![A, 1]⟩) (hb : (⟨2, ![A, 1]⟩ : Shape).Broadcasts ⟨2, ![A, B]⟩) (q : Fin B) :
    divf
      (exp (subf f (broadcastTo ⟨2, ![A, B]⟩ (shapeCast ⟨2, ![A, 1]⟩ (multiReduction .maximumf [1] ⟨1, ![A]⟩ f lo hr hφ hmax) hs) hb)))
      (broadcastTo ⟨2, ![A, B]⟩ (shapeCast ⟨2, ![A, 1]⟩
        (multiReduction .add [1] ⟨1, ![A]⟩
          (exp (subf f (broadcastTo ⟨2, ![A, B]⟩ (shapeCast ⟨2, ![A, 1]⟩ (multiReduction .maximumf [1] ⟨1, ![A]⟩ f lo hr hφ hmax) hs) hb)))
          0x00000000#32 hr hφ hadd) hs) hb) (ix2 p q)
      = Ideal.div
          (Ideal.exp (R q - (Finset.univ : Finset (Fin B)).fold max (Ideal.ofBits .f32 lo) R))
          (∑ k : Fin B, Ideal.exp (R k - (Finset.univ : Finset (Fin B)).fold max (Ideal.ofBits .f32 lo) R)) := by
  have hR : (fun k => f (ix2 p k)) = R := funext hf
  rw [Cert.SoftmaxRows.softmaxRows_apply f lo hr hφ hmax hadd hs hb p q, hR]
  simp only [hf]

end Cert.AttnBody

end
-- ==== Proof.AttnBodyValue.lean ====
/-
  The attention kernel body's arithmetic read one entry at a time, at the exact (extended-real) instance.

  One run of the body takes a query block Q [1, 1, 1024, 1024], a key block and a value block [1, 1, 256, 1024], and the
  scratch contents it finds: the running row maximum m, the running denominator l (both [1024, 1] columns) and the
  running numerator a [1024, 1024]. With the tile's score

      sc i k = (∑ₑ Q (0, 0, i, e) · K (0, 0, k, e)) · (1 / 32),

  it computes, row by row,

      m' i      = max (m i) (maxₖ sc i k)                          (the new running maximum)
      α i       = exp (m i − m' i)                                 (the factor that rescales what was accumulated)
      p i k     = exp (sc i k − m' i)                              (the tile's unnormalised weights)
      l' i      = α i · l i + ∑ₖ p i k                             (the new denominator)
      a' i o    = α i · a i o + ∑ₖ p i k · V (0, 0, k, o)          (the new numerator)

  and, after the last tile, the quotient a i o / l i. Each theorem below reads one of the generated skeleton's payloads
  at an index and finds the corresponding line. The sums are the extended reals' commutative ones and the row maximum
  is the fold of max over the 256 columns of the tile, started from the value of the pattern 0xFF800000 (minus infinity).
-/
import proofs.«114428_j86569360818603_2_alg».proof.Proof.Gen.KernelIdeal.Skeleton
import proofs.«114428_j86569360818603_2_alg».proof.Proof.LibDenseRows
import proofs.«114428_j86569360818603_2_alg».proof.Proof.LibColumns
import proofs.«114428_j86569360818603_2_alg».proof.Proof.LibPlainLayers
import proofs.«114428_j86569360818603_2_alg».proof.Proof.LibSoftmaxRows
import proofs.«114428_j86569360818603_2_alg».proof.Proof.LibAttnBody
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBodyValue

open Idealize.ShloMosaic Idealize.ShloMosaic.ValueIdx Cert.KernelIdeal

/-! ## The score of a tile -/

/-- The score of query row i against key row k of the tile: their inner product over the 1024 features, times the
    scale the body multiplies by (the value of the pattern 0x3D000000, which is 1 / 32). -/
def sc (Q : Vec Ideal S1x1x1024x1024 .bf16) (Kb : Vec Ideal S1x1x256x1024 .bf16) (i : Fin 1024) (k : Fin 256) : EReal :=
  (∑ e : Fin 1024, Q (ix4 (0 : Fin 1) (0 : Fin 1) i e) * Kb (ix4 (0 : Fin 1) (0 : Fin 1) k e))
    * Ideal.ofBits .f32 0x3D000000#32

/-- The scaled product the body forms — the query block with its unit axes dropped, times the transpose of the key
    block with its unit axes dropped, into a zero accumulator, times the splat of the scale — is at (i, k) the score. -/
theorem score_apply (Q : Vec Ideal S1x1x1024x1024 .bf16) (Kb : Vec Ideal S1x1x256x1024 .bf16) (i : Fin 1024) (k : Fin 256) :
    Gen.k1_pay9 (F := Ideal) Q Kb (ix2 i k) = sc Q Kb i k := by
  unfold Gen.k1_pay9 sc
  refine congrArg (· * Ideal.ofBits .f32 0x3D000000#32) ?_
  refine (Cert.PlainLayers.plainMM_of_eq (M := 1024) (K := 1024) (N := 256) _ rfl none _ _ i k).trans ?_
  refine Finset.sum_congr rfl fun e _ => congrArg₂ (· * ·) ?_ ?_
  · exact Cert.AttnBody.shapeCast_11ab_ab_apply Q _ i e
  · exact (transpose_ix2_apply _ _ e k).trans (Cert.AttnBody.shapeCast_11ab_ab_apply Kb _ k e)

/-! ## The running maximum, the rescaling factor, the weights and the denominator -/

/-- The new running maximum of row i: the larger of the one found and the tile's row maximum, which is the fold of max
    over the tile's 256 columns started from the value of the pattern 0xFF800000. -/
theorem rowMax_apply (Q : Vec Ideal S1x1x1024x1024 .bf16) (Kb : Vec Ideal S1x1x256x1024 .bf16) (m0 : Vec Ideal S1024x1 .f32)
    (i : Fin 1024) :
    Gen.k1_pay10 (F := Ideal) Q Kb m0 (ix2 i (0 : Fin 1))
      = max (m0 (ix2 i (0 : Fin 1)))
          ((Finset.univ : Finset (Fin 256)).fold max (Ideal.ofBits .f32 0xFF800000#32) fun k : Fin 256 => sc Q Kb i k) := by
  unfold Gen.k1_pay10
  refine congrArg (max (m0 (ix2 i (0 : Fin 1)))) ?_
  refine (Cert.SoftmaxRows.keepdimsMax_apply (A := 1024) (B := 256) (Gen.k1_pay9 (F := Ideal) Q Kb) 0xFF800000#32 _ _ _ _ i 0).trans ?_
  exact congrArg ((Finset.univ : Finset (Fin 256)).fold max (Ideal.ofBits .f32 0xFF800000#32))
    (funext fun k => score_apply Q Kb i k)

/-- The factor that rescales what was accumulated under the maximum found m0' to the new maximum: exp (m0' i − m' i). -/
theorem rescale_apply (Q : Vec Ideal S1x1x1024x1024 .bf16) (Kb : Vec Ideal S1x1x256x1024 .bf16) (m0 m0' : Vec Ideal S1024x1 .f32)
    (i : Fin 1024) :
    Gen.k1_pay11 (F := Ideal) Q Kb m0 m0' (ix2 i (0 : Fin 1))
      = Ideal.exp (m0' (ix2 i (0 : Fin 1)) - Gen.k1_pay10 (F := Ideal) Q Kb m0 (ix2 i (0 : Fin 1))) := by
  unfold Gen.k1_pay11
  rfl

/-- The tile's unnormalised weight at (i, k): exp (sc i k − m' i), the new maximum repeated along the row. -/
theorem weight_apply (Q : Vec Ideal S1x1x1024x1024 .bf16) (Kb : Vec Ideal S1x1x256x1024 .bf16) (m0 : Vec Ideal S1024x1 .f32)
    (i : Fin 1024) (k : Fin 256) :
    Gen.k1_pay12 (F := Ideal) Q Kb m0 (ix2 i k)
      = Ideal.exp (sc Q Kb i k - Gen.k1_pay10 (F := Ideal) Q Kb m0 (ix2 i (0 : Fin 1))) := by
  unfold Gen.k1_pay12
  exact congrArg₂ (fun x y : EReal => Ideal.exp (x - y)) (score_apply Q Kb i k)
    (Cert.Columns.broadcastTo_a1_ab_apply _ _ i k)

/-- The new denominator of row i: the rescaling factor times the denominator found, plus the sum of the tile's weights
    along the row. -/
theorem denom_apply (Q : Vec Ideal S1x1x1024x1024 .bf16) (Kb : Vec Ideal S1x1x256x1024 .bf16) (m0 m0' l0 : Vec Ideal S1024x1 .f32)
    (i : Fin 1024) :
    Gen.k1_pay13 (F := Ideal) Q Kb m0 m0' l0 (ix2 i (0 : Fin 1))
      = Gen.k1_pay11 (F := Ideal) Q Kb m0 m0' (ix2 i (0 : Fin 1)) * l0 (ix2 i (0 : Fin 1))
          + ∑ k : Fin 256, Gen.k1_pay12 (F := Ideal) Q Kb m0 (ix2 i k) := by
  unfold Gen.k1_pay13
  exact congrArg (Gen.k1_pay11 (F := Ideal) Q Kb m0 m0' (ix2 i (0 : Fin 1)) * l0 (ix2 i (0 : Fin 1)) + ·)
    (Cert.Columns.keepdimsSum_apply (a := 1024) (b := 256) (Gen.k1_pay12 (F := Ideal) Q Kb m0) 0x00000000#32 _ _ _ _ i 0)

/-! ## The numerator and the final quotient -/

/-- The new numerator at (i, o), for any column of factors p11 and any array of weights p12: the factor of row i times
    the numerator found, plus the sum over the tile's rows k of the weight (i, k) times the value block at (0, 0, k, o).
    (The weights' change of format before the product is the identity on extended reals.) -/
theorem numer_apply (Vb : Vec Ideal S1x1x256x1024 .bf16) (p11 : FVec Ideal S1024x1 .f32) (p12 : FVec Ideal S1024x256 .f32)
    (a0 : Vec Ideal S1024x1024 .f32) (i o : Fin 1024) :
    Gen.k1_pay2 (F := Ideal) (Gen.k1_pay8 (F := Ideal) Vb) p11 p12 a0 (ix2 i o)
      = p11 (ix2 i (0 : Fin 1)) * a0 (ix2 i o)
          + ∑ k : Fin 256, p12 (ix2 i k) * Vb (ix4 (0 : Fin 1) (0 : Fin 1) k o) := by
  unfold Gen.k1_pay2 Gen.k1_pay8
  refine (congrFun (shapeCast_self _ _) (ix2 i o)).trans ?_
  refine congrArg₂ (· + ·) (congrArg (· * a0 (ix2 i o)) (Cert.Columns.broadcastTo_a1_ab_apply p11 _ i o)) ?_
  refine (Cert.PlainLayers.plainMM_of_eq (M := 1024) (K := 256) (N := 1024) _ rfl none _ _ i o).trans ?_
  exact Finset.sum_congr rfl fun k _ => congrArg (p12 (ix2 i k) * ·) (Cert.AttnBody.shapeCast_11ab_ab_apply Vb _ k o)

/-- What the body writes out after the last tile, at (0, i, o): the numerator at (i, o) divided by the denominator of
    row i, the instance's division. -/
theorem quotient_apply (a : Vec Ideal S1024x1024 .f32) (l : Vec Ideal S1024x1 .f32) (i o : Fin 1024) :
    Gen.k1_pay4 (F := Ideal) a l (ix3 (0 : Fin 1) i o) = Ideal.div (a (ix2 i o)) (l (ix2 i (0 : Fin 1))) := by
  unfold Gen.k1_pay4
  refine (shapeCast_ab_1ab_apply _ _ 0 i o).trans ?_
  exact congrArg (Ideal.div (a (ix2 i o))) (Cert.Columns.broadcastTo_a1_ab_apply l _ i o)

/-! ## What is written back unchanged, and what the scratch is reset to -/

/-- The denominator is written back as computed: a recast to the same shape is the identity. -/
theorem writeDenom_eq (v : FVec Ideal S1024x1 .f32) : Gen.k1_pay1 (F := Ideal) v = v := by
  unfold Gen.k1_pay1
  exact shapeCast_self v _

/-- The running maximum is written back as computed. -/
theorem writeMax_eq (v : FVec Ideal S1024x1 .f32) : Gen.k1_pay3 (F := Ideal) v = v := by
  unfold Gen.k1_pay3
  exact shapeCast_self v _

/-- Before the first tile the running maximum is reset to the value of the pattern 0xFF800000 … -/
theorem resetMax_apply (i : Fin 1024) : Gen.k1_pay5 (F := Ideal) (ix2 i (0 : Fin 1)) = Ideal.ofBits .f32 0xFF800000#32 := by
  unfold Gen.k1_pay5
  exact congrFun (shapeCast_self _ _) (ix2 i (0 : Fin 1))

/-- … the denominator to the value of the zero pattern … -/
theorem resetDenom_apply (i : Fin 1024) : Gen.k1_pay6 (F := Ideal) (ix2 i (0 : Fin 1)) = Ideal.ofBits .f32 0x00000000#32 := by
  unfold Gen.k1_pay6
  exact congrFun (shapeCast_self _ _) (ix2 i (0 : Fin 1))

/-- … and so is the numerator. -/
theorem resetNumer_apply (i o : Fin 1024) : Gen.k1_pay7 (F := Ideal) (ix2 i o) = Ideal.ofBits .f32 0x00000000#32 := by
  unfold Gen.k1_pay7
  exact congrFun (shapeCast_self _ _) (ix2 i o)

/-! ## The three patterns' values -/

/-- The pattern 0xFF800000 denotes minus infinity. -/
theorem ofBits_negInf : Ideal.ofBits .f32 0xFF800000#32 = ⊥ := by
  simp [Ideal.ofBits, Ideal.ieee]

/-- The zero pattern denotes zero. -/
theorem ofBits_zero : Ideal.ofBits .f32 0x00000000#32 = 0 := Ideal.ofBits_zero_f32

/-- The pattern 0x3D000000 (exponent field 122, no fraction) denotes 2⁻⁵ = 1 / 32. -/
theorem ofBits_scale : Ideal.ofBits .f32 0x3D000000#32 = ((1 / 32 : ℝ) : EReal) := by
  simp [Ideal.ofBits, Ideal.ieee, -EReal.coe_mul]
  norm_num

end Cert.KernelIdeal.AttnBodyValue

end
-- ==== Proof.LibOnlineSoftmax.lean ====
/-
  A softmax-weighted sum computed tile by tile with a running maximum, against the plain one.

  For real scores `s j` and real values `v j` over a finite index set, the plain computation takes the maximum `M`
  of the scores, the weights `e j = exp (s j - M)`, their sum `L`, and returns `∑ j, (e j / L) * v j`. The running
  computation never sees all the scores at once. It keeps three numbers — a maximum `m` (from `-∞`), a
  denominator `l` and a numerator `a` (both from `0`) — and, for each new tile `T` of indices, replaces them by

      m' = max m (max over T of s),   l' = exp (m - m') * l + ∑ j ∈ T, exp (s j - m'),
                                      a' = exp (m - m') * a + ∑ j ∈ T, exp (s j - m') * v j,

  and at the end returns `a / l`. The factor `exp (m - m')` re-bases what was accumulated against the old maximum
  to the new one, because `exp (m - m') * exp (s j - m) = exp (s j - m')`; at the first tile `m = -∞`, the factor is
  `exp (-∞) = 0`, and it multiplies `0`.

  Everything is stated on the extended reals with the exact exponential and quotient (`Ideal.exp`, `Ideal.div`),
  for scores and values that are real: `Inv` is what the three numbers hold after the indices `S` have been seen,
  `Inv.empty` is the start, `Inv.step` one more tile, and `div_num_den` that the final quotient is the plain
  softmax-weighted sum.
-/
import Idealize.ShloMosaic.PureOps.Ideal

noncomputable section

namespace Idealize.ShloMosaic.OnlineSoftmax

variable {ι : Type} [DecidableEq ι]

/-- The coercion of the reals into the extended reals commutes with finite sums. -/
theorem coe_sum (S : Finset ι) (f : ι → ℝ) : ((∑ j ∈ S, f j : ℝ) : EReal) = ∑ j ∈ S, (f j : EReal) := by
  refine Finset.induction_on S (by simp) fun a S ha ih => ?_
  rw [Finset.sum_insert ha, Finset.sum_insert ha, EReal.coe_add, ih]

/-- The exponential of a difference of two reals, on the extended reals, is the real exponential. -/
theorem exp_coe_sub (x r : ℝ) : Ideal.exp ((x : EReal) - (r : EReal)) = ((Real.exp (x - r) : ℝ) : EReal) := by
  rw [← EReal.coe_sub, Ideal.exp_coe]

variable (s v : ι → ℝ)

/-- The maximum of the scores over `S`, from `-∞`. -/
def rmax (S : Finset ι) : EReal := S.sup fun j => (s j : EReal)

/-- The sum over `S` of the exponentials of the scores less `m`. -/
def den (S : Finset ι) (m : EReal) : EReal := ∑ j ∈ S, Ideal.exp ((s j : EReal) - m)

/-- The sum over `S` of those exponentials times the values. -/
def num (S : Finset ι) (m : EReal) : EReal := ∑ j ∈ S, Ideal.exp ((s j : EReal) - m) * (v j : EReal)

@[simp] theorem rmax_empty : rmax s ∅ = ⊥ := Finset.sup_empty
@[simp] theorem den_empty (m : EReal) : den s ∅ m = 0 := Finset.sum_empty
@[simp] theorem num_empty (m : EReal) : num s v ∅ m = 0 := Finset.sum_empty

theorem rmax_union (S T : Finset ι) : rmax s (S ∪ T) = max (rmax s S) (rmax s T) := Finset.sup_union

/-- Over a nonempty set the maximum of real scores is a real. -/
theorem rmax_coe_of_nonempty {S : Finset ι} (h : S.Nonempty) : ∃ r : ℝ, rmax s S = (r : EReal) := by
  obtain ⟨i, _, hi⟩ := Finset.exists_mem_eq_sup S h fun j => (s j : EReal)
  exact ⟨s i, hi⟩

theorem den_coe (S : Finset ι) (r : ℝ) :
    den s S (r : EReal) = ((∑ j ∈ S, Real.exp (s j - r) : ℝ) : EReal) := by
  unfold den; rw [coe_sum]; exact Finset.sum_congr rfl fun j _ => exp_coe_sub _ _

theorem num_coe (S : Finset ι) (r : ℝ) :
    num s v S (r : EReal) = ((∑ j ∈ S, Real.exp (s j - r) * v j : ℝ) : EReal) := by
  unfold num; rw [coe_sum]; exact Finset.sum_congr rfl fun j _ => by rw [exp_coe_sub, ← EReal.coe_mul]

/-- Re-basing a denominator from the maximum `r` to `r'`: one factor `exp (r - r')`. -/
theorem rebase_den (S : Finset ι) (r r' : ℝ) :
    Ideal.exp ((r : EReal) - (r' : EReal)) * den s S (r : EReal) = den s S (r' : EReal) := by
  rw [exp_coe_sub, den_coe, den_coe, ← EReal.coe_mul, Finset.mul_sum]
  refine congrArg _ (Finset.sum_congr rfl fun j _ => ?_)
  rw [← Real.exp_add]; congr 1; ring

/-- Re-basing a numerator likewise. -/
theorem rebase_num (S : Finset ι) (r r' : ℝ) :
    Ideal.exp ((r : EReal) - (r' : EReal)) * num s v S (r : EReal) = num s v S (r' : EReal) := by
  rw [exp_coe_sub, num_coe, num_coe, ← EReal.coe_mul, Finset.mul_sum]
  refine congrArg _ (Finset.sum_congr rfl fun j _ => ?_)
  rw [← mul_assoc, ← Real.exp_add]; congr 2; ring

/-- What the running maximum, denominator and numerator hold once the indices `S` have been seen. -/
structure Inv (S : Finset ι) (m l a : EReal) : Prop where
  max_eq : m = rmax s S
  den_eq : l = den s S m
  num_eq : a = num s v S m

/-- The start: nothing seen, the maximum at `-∞`, both sums at `0`. -/
theorem Inv.empty : Inv s v ∅ ⊥ 0 0 := ⟨(rmax_empty s).symm, (den_empty s _).symm, (num_empty s v _).symm⟩

/-- One more tile `T` (nonempty, disjoint from what was seen): the new maximum, and the old sums re-based by
    `exp (m - m')` plus the tile's own sums against the new maximum. -/
theorem Inv.step {S T : Finset ι} {m l a : EReal} (h : Inv s v S m l a) (hT : T.Nonempty) (hd : Disjoint S T) :
    Inv s v (S ∪ T) (max m (rmax s T))
      (Ideal.exp (m - max m (rmax s T)) * l + den s T (max m (rmax s T)))
      (Ideal.exp (m - max m (rmax s T)) * a + num s v T (max m (rmax s T))) := by
  obtain ⟨hm, hl, ha⟩ := h
  have hM : max m (rmax s T) = rmax s (S ∪ T) := by rw [hm]; exact (rmax_union s S T).symm
  obtain ⟨r', hr'⟩ := rmax_coe_of_nonempty s (hT.mono Finset.subset_union_right)
  rw [hM, hr']
  refine ⟨hr'.symm, ?_, ?_⟩
  · rcases S.eq_empty_or_nonempty with rfl | hS
    · rw [hl, den_empty, mul_zero, zero_add, Finset.empty_union]
    · obtain ⟨r, hr⟩ := rmax_coe_of_nonempty s hS
      rw [hl, hm, hr, rebase_den]; unfold den; rw [Finset.sum_union hd]
  · rcases S.eq_empty_or_nonempty with rfl | hS
    · rw [ha, num_empty, mul_zero, zero_add, Finset.empty_union]
    · obtain ⟨r, hr⟩ := rmax_coe_of_nonempty s hS
      rw [ha, hm, hr, rebase_num]; unfold num; rw [Finset.sum_union hd]

/-- The end: the numerator over the denominator is the plain softmax-weighted sum, each weight
    `exp (s j - M) / L` taken first and then multiplied by its value. -/
theorem div_num_den {S : Finset ι} (hS : S.Nonempty) :
    Ideal.div (num s v S (rmax s S)) (den s S (rmax s S))
      = ∑ j ∈ S, Ideal.div (Ideal.exp ((s j : EReal) - rmax s S)) (den s S (rmax s S)) * (v j : EReal) := by
  obtain ⟨r, hr⟩ := rmax_coe_of_nonempty s hS
  have hD : (∑ j ∈ S, Real.exp (s j - r)) ≠ 0 := (Finset.sum_pos (fun j _ => Real.exp_pos _) hS).ne'
  rw [hr, den_coe, num_coe, Ideal.div_coe hD, ← EReal.coe_mul, Finset.sum_mul, coe_sum]
  refine Finset.sum_congr rfl fun j _ => ?_
  rw [Ideal.div_coe hD, exp_coe_sub, ← EReal.coe_mul, ← EReal.coe_mul]
  congr 1; ring

/-- The same from the invariant: once every index of a nonempty `S` has been seen, `a / l` is the plain sum. -/
theorem Inv.div_eq {S : Finset ι} {m l a : EReal} (h : Inv s v S m l a) (hS : S.Nonempty) :
    Ideal.div a l = ∑ j ∈ S, Ideal.div (Ideal.exp ((s j : EReal) - rmax s S)) (den s S (rmax s S)) * (v j : EReal) := by
  obtain ⟨hm, hl, ha⟩ := h
  rw [ha, hl, hm]; exact div_num_den s v hS

/-! ## Consecutive tiles of `Fin n`

The indices `Fin n` seen in consecutive tiles of width `w`: the indices below `b` (`below`), tile `c` as the image
of `Fin w` under `k ↦ w * c + k` (`tile`), a sum and a maximum over a tile as a sum and a maximum over `Fin w`, and
the prefix below `w * c + w` as the prefix below `w * c` and tile `c`, disjoint. -/

section Tiles

variable {n : Nat}

/-- The indices below `b`. -/
def below (b : Nat) : Finset (Fin n) := Finset.univ.filter fun j => j.val < b

/-- Position `k` of tile `c`. -/
def tileAt {w c : Nat} (h : w * c + w ≤ n) (k : Fin w) : Fin n := ⟨w * c + k.val, by have := k.isLt; omega⟩

/-- Tile `c`: the indices `w * c + k`, `k < w`. -/
def tile {w c : Nat} (h : w * c + w ≤ n) : Finset (Fin n) := Finset.univ.image (tileAt h)

theorem tileAt_injective {w c : Nat} (h : w * c + w ≤ n) : Function.Injective (tileAt h) := fun k k' e => by
  have := congrArg Fin.val e
  simp only [tileAt] at this
  exact Fin.ext (by omega)

theorem mem_below {b : Nat} {j : Fin n} : j ∈ below (n := n) b ↔ j.val < b := by
  simp [below]

theorem mem_tile {w c : Nat} (h : w * c + w ≤ n) {j : Fin n} : j ∈ tile h ↔ w * c ≤ j.val ∧ j.val < w * c + w := by
  simp only [tile, Finset.mem_image, Finset.mem_univ, true_and]
  constructor
  · rintro ⟨k, rfl⟩
    have := k.isLt
    simp only [tileAt]; omega
  · rintro ⟨h1, h2⟩
    exact ⟨⟨j.val - w * c, by omega⟩, Fin.ext (by simp only [tileAt]; omega)⟩

@[simp] theorem below_zero : below (n := n) 0 = ∅ := by
  ext j; simp [mem_below]

theorem below_of_le {b : Nat} (h : n ≤ b) : below (n := n) b = Finset.univ := by
  ext j; have := j.isLt; simp only [mem_below, Finset.mem_univ, iff_true]; omega

theorem below_add_tile {w c : Nat} (h : w * c + w ≤ n) : below (n := n) (w * c + w) = below (w * c) ∪ tile h := by
  ext j; simp only [mem_below, Finset.mem_union, mem_tile]; omega

theorem disjoint_below_tile {w c : Nat} (h : w * c + w ≤ n) : Disjoint (below (n := n) (w * c)) (tile h) := by
  rw [Finset.disjoint_left]; intro j hj hj'
  rw [mem_below] at hj; rw [mem_tile] at hj'; omega

theorem tile_nonempty {w c : Nat} (h : w * c + w ≤ n) (hw : 0 < w) : (tile h).Nonempty :=
  ⟨tileAt h ⟨0, hw⟩, Finset.mem_image_of_mem _ (Finset.mem_univ _)⟩

/-- A sum over a tile is the sum over its positions. -/
theorem sum_tile {M : Type} [AddCommMonoid M] {w c : Nat} (h : w * c + w ≤ n) (f : Fin n → M) :
    ∑ j ∈ tile h, f j = ∑ k : Fin w, f (tileAt h k) :=
  Finset.sum_image fun k _ k' _ e => tileAt_injective h e

/-- A maximum over a tile is the maximum over its positions. -/
theorem sup_tile {w c : Nat} (h : w * c + w ≤ n) (f : Fin n → EReal) :
    (tile h).sup f = Finset.univ.sup fun k : Fin w => f (tileAt h k) :=
  Finset.sup_image _ _ _

variable (s v : Fin n → ℝ)

/-- The maximum over tile `c`, position by position. -/
theorem rmax_tile {w c : Nat} (h : w * c + w ≤ n) :
    rmax s (tile h) = Finset.univ.sup fun k : Fin w => (s (tileAt h k) : EReal) := sup_tile h _

/-- Tile `c`'s denominator, position by position. -/
theorem den_tile {w c : Nat} (h : w * c + w ≤ n) (m : EReal) :
    den s (tile h) m = ∑ k : Fin w, Ideal.exp ((s (tileAt h k) : EReal) - m) := sum_tile h _

/-- Tile `c`'s numerator, position by position. -/
theorem num_tile {w c : Nat} (h : w * c + w ≤ n) (m : EReal) :
    num s v (tile h) m = ∑ k : Fin w, Ideal.exp ((s (tileAt h k) : EReal) - m) * (v (tileAt h k) : EReal) :=
  sum_tile h _

/-- One more tile, on prefixes: from what the running numbers hold below `w * c` to what they hold below
    `w * c + w`, the tile's maximum and sums written position by position. -/
theorem Inv.step_tile {w c : Nat} (h : w * c + w ≤ n) (hw : 0 < w) {m l a : EReal}
    (hI : Inv s v (below (w * c)) m l a) :
    Inv s v (below (w * c + w))
      (max m (Finset.univ.sup fun k : Fin w => (s (tileAt h k) : EReal)))
      (Ideal.exp (m - max m (Finset.univ.sup fun k : Fin w => (s (tileAt h k) : EReal))) * l
        + ∑ k : Fin w, Ideal.exp ((s (tileAt h k) : EReal)
            - max m (Finset.univ.sup fun k : Fin w => (s (tileAt h k) : EReal))))
      (Ideal.exp (m - max m (Finset.univ.sup fun k : Fin w => (s (tileAt h k) : EReal))) * a
        + ∑ k : Fin w, Ideal.exp ((s (tileAt h k) : EReal)
            - max m (Finset.univ.sup fun k : Fin w => (s (tileAt h k) : EReal))) * (v (tileAt h k) : EReal)) := by
  have := hI.step s v (tile_nonempty h hw) (disjoint_below_tile h)
  rwa [← below_add_tile h, rmax_tile, den_tile, num_tile] at this

end Tiles

end Idealize.ShloMosaic.OnlineSoftmax

end
-- ==== Proof.AttnValue.lean ====
/-
  The attention region's result array, at the exact (extended-real) instance.

  Suppose the reshaped projections the region reads are real numbers, `P p b s o` for projection `p`, batch `b`, row `s`,
  entry `o`. For a query row `g` of batch `b` the scaled scores against the key rows are
  `s j = (∑ₑ P 1 b g e · P 0 b j e) / 32` and the values are `v j = P 2 b j o`. The grid visits, for each batch and each tile
  of 1024 query rows, the eight tiles of 256 key rows in order; between two points the three scratch arrays hold a running
  maximum, denominator and numerator. One run of the body carries the online-softmax invariant from the key rows below
  `256 · k` to those below `256 · k + 256`, the first tile starting from the reset values. By induction along the grid the
  invariant holds after every point; after a last key tile every key row has been seen, and the body's quotient is the
  softmax-weighted sum of the values. The write-backs of the last key tiles cover the result array.
-/
import proofs.«114428_j86569360818603_2_alg».proof.Proof.Region1Pieces
import proofs.«114428_j86569360818603_2_alg».proof.Proof.AttnBodyValue
import proofs.«114428_j86569360818603_2_alg».proof.Proof.LibOnlineSoftmax
import Idealize.ShloMosaic.Lib.Pipeline.Value
import Idealize.ShloMosaic.Lib.ValueIdx

set_option maxRecDepth 16384

noncomputable section

namespace Cert.KernelIdeal.AttnValue

open Idealize.ShloMosaic Idealize.ShloMosaic.TcCoe Idealize.SL.Sem Idealize.ShloMosaic.ValueIdx
open Idealize.ShloMosaic.Pipeline (Dat)
open Idealize.ShloMosaic.OnlineSoftmax
open Cert.KernelIdeal Cert.KernelIdeal.Gen Cert.KernelIdeal.Region1 Cert.KernelIdeal.AttnBodyValue

variable (V : (c : Dev nD) → (b : Ref sig .tc) → Buf (Elt Ideal) ((c : Thread nD τ).loc b)) (c : Dev nD)

/-! ## The windows' blocks as parts of the reshaped projections -/

/-- The query window's block index at point t: projection 1, batch t / 16, query tile (t / 8) % 2. -/
theorem idx1_0 : ∀ t : Fin cfg1.N, win1_0.index t 0 = 1 ∧ win1_0.index t 1 = t.val / 16 ∧ win1_0.index t 2 = (t.val / 8) % 2 ∧ win1_0.index t 3 = 0 :=
  (by decide +kernel : ∀ t : Fin grid1.N, win1_0.index t 0 = 1 ∧ win1_0.index t 1 = t.val / 16 ∧ win1_0.index t 2 = (t.val / 8) % 2 ∧ win1_0.index t 3 = 0)
/-- The key window's: projection 0, batch t / 16, key tile t % 8. -/
theorem idx1_1 : ∀ t : Fin cfg1.N, win1_1.index t 0 = 0 ∧ win1_1.index t 1 = t.val / 16 ∧ win1_1.index t 2 = t.val % 8 ∧ win1_1.index t 3 = 0 :=
  (by decide +kernel : ∀ t : Fin grid1.N, win1_1.index t 0 = 0 ∧ win1_1.index t 1 = t.val / 16 ∧ win1_1.index t 2 = t.val % 8 ∧ win1_1.index t 3 = 0)
/-- The value window's: projection 2, batch t / 16, key tile t % 8. -/
theorem idx1_2 : ∀ t : Fin cfg1.N, win1_2.index t 0 = 2 ∧ win1_2.index t 1 = t.val / 16 ∧ win1_2.index t 2 = t.val % 8 ∧ win1_2.index t 3 = 0 :=
  (by decide +kernel : ∀ t : Fin grid1.N, win1_2.index t 0 = 2 ∧ win1_2.index t 1 = t.val / 16 ∧ win1_2.index t 2 = t.val % 8 ∧ win1_2.index t 3 = 0)
/-- The output window's: batch t / 16, query tile (t / 8) % 2. -/
theorem idx1_3 : ∀ t : Fin cfg1.N, win1_3.index t 0 = t.val / 16 ∧ win1_3.index t 1 = (t.val / 8) % 2 ∧ win1_3.index t 2 = 0 :=
  (by decide +kernel : ∀ t : Fin grid1.N, win1_3.index t 0 = t.val / 16 ∧ win1_3.index t 1 = (t.val / 8) % 2 ∧ win1_3.index t 2 = 0)

/-- Row i of the query block at point t is query row 1024 · (query tile) + i of projection 1. -/
theorem qblock_apply (t : Fin cfg1.N) (i : Fin 1024) (e : Fin 1024) (b : Fin 4) (g : Fin 2048)
    (hb : b.val = t.val / 16) (hg : g.val = 1024 * ((t.val / 8) % 2) + i.val) :
    (iblk1 V c 0 t : Vec Ideal S1x1x1024x1024 .bf16) (ix4 (0 : Fin 1) (0 : Fin 1) i e) = V c main_v2 (ix4 (1 : Fin 3) b g e) := by
  obtain ⟨h0, h1, h2, h3⟩ := idx1_0 t
  unfold iblk1
  rw [View.read_apply]
  show V c main_v2 _ = V c main_v2 _
  congr 1
  funext a
  apply Fin.ext
  match a with
  | ⟨0, _⟩ => show win1_0.index t 0 * 1 + 1 * 0 = 1; omega
  | ⟨1, _⟩ => show win1_0.index t 1 * 1 + 1 * 0 = b.val; omega
  | ⟨2, _⟩ => show win1_0.index t 2 * 1024 + 1 * i.val = g.val; omega
  | ⟨3, _⟩ => show win1_0.index t 3 * 1024 + 1 * e.val = e.val; omega

/-- Row k of the key block at point t is key row 256 · (key tile) + k of projection 0. -/
theorem kblock_apply (t : Fin cfg1.N) (i : Fin 256) (e : Fin 1024) (b : Fin 4) (g : Fin 2048)
    (hb : b.val = t.val / 16) (hg : g.val = 256 * (t.val % 8) + i.val) :
    (iblk1 V c 1 t : Vec Ideal S1x1x256x1024 .bf16) (ix4 (0 : Fin 1) (0 : Fin 1) i e) = V c main_v2 (ix4 (0 : Fin 3) b g e) := by
  obtain ⟨h0, h1, h2, h3⟩ := idx1_1 t
  unfold iblk1
  rw [View.read_apply]
  show V c main_v2 _ = V c main_v2 _
  congr 1
  funext a
  apply Fin.ext
  match a with
  | ⟨0, _⟩ => show win1_1.index t 0 * 1 + 1 * 0 = 0; omega
  | ⟨1, _⟩ => show win1_1.index t 1 * 1 + 1 * 0 = b.val; omega
  | ⟨2, _⟩ => show win1_1.index t 2 * 256 + 1 * i.val = g.val; omega
  | ⟨3, _⟩ => show win1_1.index t 3 * 1024 + 1 * e.val = e.val; omega

/-- Row k of the value block at point t is key row 256 · (key tile) + k of projection 2. -/
theorem vblock_apply (t : Fin cfg1.N) (i : Fin 256) (e : Fin 1024) (b : Fin 4) (g : Fin 2048)
    (hb : b.val = t.val / 16) (hg : g.val = 256 * (t.val % 8) + i.val) :
    (iblk1 V c 2 t : Vec Ideal S1x1x256x1024 .bf16) (ix4 (0 : Fin 1) (0 : Fin 1) i e) = V c main_v2 (ix4 (2 : Fin 3) b g e) := by
  obtain ⟨h0, h1, h2, h3⟩ := idx1_2 t
  unfold iblk1
  rw [View.read_apply]
  show V c main_v2 _ = V c main_v2 _
  congr 1
  funext a
  apply Fin.ext
  match a with
  | ⟨0, _⟩ => show win1_2.index t 0 * 1 + 1 * 0 = 2; omega
  | ⟨1, _⟩ => show win1_2.index t 1 * 1 + 1 * 0 = b.val; omega
  | ⟨2, _⟩ => show win1_2.index t 2 * 256 + 1 * i.val = g.val; omega
  | ⟨3, _⟩ => show win1_2.index t 3 * 1024 + 1 * e.val = e.val; omega

/-! ## The real-valued model -/

variable (Pr : Fin 3 → Fin 4 → Fin 2048 → Fin 1024 → ℝ)

/-- The scaled score of query row g against key row j, batch b. -/
def sR (b : Fin 4) (g j : Fin 2048) : ℝ := (∑ e : Fin 1024, Pr 1 b g e * Pr 0 b j e) * (1 / 32)
/-- The value of key row j at entry o, batch b. -/
def vR (b : Fin 4) (o : Fin 1024) (j : Fin 2048) : ℝ := Pr 2 b j o

theorem lt64 (t : Fin cfg1.N) : t.val < 64 := lt_of_lt_of_eq t.isLt N_1
/-- The batch of grid point t. -/
def bt (t : Fin cfg1.N) : Fin 4 := ⟨t.val / 16, by have := lt64 t; omega⟩
/-- The query row that row i of the query block at point t is. -/
def gt (t : Fin cfg1.N) (i : Fin 1024) : Fin 2048 := ⟨1024 * ((t.val / 8) % 2) + i.val, by have := i.isLt; omega⟩
theorem tile_le (t : Fin cfg1.N) : 256 * (t.val % 8) + 256 ≤ 2048 := by omega

/-- A fold of the maximum from -∞ is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

variable (hP : ∀ p b s o, V c main_v2 (ix4 p b s o) = ((Pr p b s o : ℝ) : EReal))
include hP

/-- The tile's score at (i, k) is the real score of the query row against key row 256 · (key tile) + k. -/
theorem sc_eq (t : Fin cfg1.N) (i : Fin 1024) (k : Fin 256) :
    sc (iblk1 V c 0 t) (iblk1 V c 1 t) i k = ((sR Pr (bt t) (gt t i) (tileAt (tile_le t) k) : ℝ) : EReal) := by
  unfold sc sR
  rw [ofBits_scale, EReal.coe_mul, coe_sum]
  congr 1
  refine Finset.sum_congr rfl fun e _ => ?_
  rw [qblock_apply V c t i e (bt t) (gt t i) rfl rfl, kblock_apply V c t k e (bt t) (tileAt (tile_le t) k) rfl rfl, hP, hP,
    EReal.coe_mul]

/-- The value block at (k, o) is the real value of key row 256 · (key tile) + k. -/
theorem vb_eq (t : Fin cfg1.N) (k : Fin 256) (o : Fin 1024) :
    (iblk1 V c 2 t : Vec Ideal S1x1x256x1024 .bf16) (ix4 (0 : Fin 1) (0 : Fin 1) k o)
      = ((vR Pr (bt t) o (tileAt (tile_le t) k) : ℝ) : EReal) := by
  rw [vblock_apply V c t k o (bt t) (tileAt (tile_le t) k) rfl rfl, hP]; rfl

/-! ## One run of the body -/

/-- One run of the body at point t, on scratch arrays whose rows satisfy the invariant for the key rows below
    256 · (key tile), leaves them satisfying it for the key rows below 256 · (key tile) + 256. -/
theorem body_step (t : Fin cfg1.N) (i o : Fin 1024) (m0 l0 : Vec Ideal S1024x1 .f32) (a0 : Vec Ideal S1024x1024 .f32)
    (hI : Inv (sR Pr (bt t) (gt t i)) (vR Pr (bt t) o) (below (256 * (t.val % 8)))
      (m0 (ix2 i (0 : Fin 1))) (l0 (ix2 i (0 : Fin 1))) (a0 (ix2 i o))) :
    Inv (sR Pr (bt t) (gt t i)) (vR Pr (bt t) o) (below (256 * (t.val % 8) + 256))
      (k1_pay3 (F := Ideal) (k1_pay10 (F := Ideal) (iblk1 V c 0 t) (iblk1 V c 1 t) m0) (ix2 i (0 : Fin 1)))
      (k1_pay1 (F := Ideal) (k1_pay13 (F := Ideal) (iblk1 V c 0 t) (iblk1 V c 1 t) m0 m0 l0) (ix2 i (0 : Fin 1)))
      (k1_pay2 (F := Ideal) (k1_pay8 (F := Ideal) (iblk1 V c 2 t))
        (k1_pay11 (F := Ideal) (iblk1 V c 0 t) (iblk1 V c 1 t) m0 m0) (k1_pay12 (F := Ideal) (iblk1 V c 0 t) (iblk1 V c 1 t) m0) a0 (ix2 i o)) := by
  have e10 : k1_pay10 (F := Ideal) (iblk1 V c 0 t) (iblk1 V c 1 t) m0 (ix2 i (0 : Fin 1))
      = max (m0 (ix2 i (0 : Fin 1))) (Finset.univ.sup fun k : Fin 256 => ((sR Pr (bt t) (gt t i) (tileAt (tile_le t) k) : ℝ) : EReal)) := by
    rw [rowMax_apply, ofBits_negInf, fold_max_bot]
    simp only [sc_eq V c Pr hP]
  rw [writeMax_eq, writeDenom_eq, numer_apply, denom_apply, rescale_apply]
  simp only [weight_apply, e10, sc_eq V c Pr hP, vb_eq V c Pr hP]
  exact hI.step_tile _ _ (tile_le t) (by norm_num)

/-! ## The invariant along the grid -/

/-- After every grid point, every row of the scratch arrays satisfies the invariant for the key rows seen so far in its
    group of eight key tiles. -/
theorem inv_at (t : Fin cfg1.N) : ∀ (i o : Fin 1024),
    Inv (sR Pr (bt t) (gt t i)) (vR Pr (bt t) o) (below (256 * (t.val % 8) + 256))
      ((outsAt1 V c t.val t.isLt).2.1 (ix2 i (0 : Fin 1))) ((outsAt1 V c t.val t.isLt).2.2.1 (ix2 i (0 : Fin 1)))
      ((outsAt1 V c t.val t.isLt).2.2.2 (ix2 i o)) := by
  obtain ⟨n, hn⟩ := t
  induction n with
  | zero =>
    intro i o
    have h0 : (⟨0, hn⟩ : Fin cfg1.N).val % 8 = 0 := rfl
    have h1 : ¬ (⟨0, hn⟩ : Fin cfg1.N).val % 8 = 7 := by show ¬ 0 % 8 = 7; omega
    rw [outsAt1_A V c ⟨0, hn⟩ h0 h1]
    dsimp only
    rw [max_A, den_A, num_A]
    refine body_step V c Pr hP ⟨0, hn⟩ i o _ _ _ ?_
    rw [resetMax_apply, resetDenom_apply, resetNumer_apply, ofBits_negInf, ofBits_zero, h0, Nat.mul_zero, below_zero]
    exact Inv.empty _ _
  | succ n ih =>
    intro i o
    have hN : n + 1 < 64 := lt_of_lt_of_eq hn N_1
    by_cases h0 : (⟨n + 1, hn⟩ : Fin cfg1.N).val % 8 = 0
    · have h1 : ¬ (⟨n + 1, hn⟩ : Fin cfg1.N).val % 8 = 7 := by omega
      rw [outsAt1_A V c ⟨n + 1, hn⟩ h0 h1]
      dsimp only
      rw [max_A, den_A, num_A]
      refine body_step V c Pr hP ⟨n + 1, hn⟩ i o _ _ _ ?_
      rw [resetMax_apply, resetDenom_apply, resetNumer_apply, ofBits_negInf, ofBits_zero, h0, Nat.mul_zero, below_zero]
      exact Inv.empty _ _
    · have hI := ih (Nat.lt_of_succ_lt hn) i o
      have h0' : ¬ (n + 1) % 8 = 0 := h0
      have eb : bt ⟨n, Nat.lt_of_succ_lt hn⟩ = bt ⟨n + 1, hn⟩ := Fin.ext (by simp only [bt]; omega)
      have eg : gt ⟨n, Nat.lt_of_succ_lt hn⟩ i = gt ⟨n + 1, hn⟩ i := Fin.ext (by simp only [gt]; omega)
      have et : 256 * ((⟨n, Nat.lt_of_succ_lt hn⟩ : Fin cfg1.N).val % 8) + 256 = 256 * ((⟨n + 1, hn⟩ : Fin cfg1.N).val % 8) := by
        show 256 * (n % 8) + 256 = 256 * ((n + 1) % 8); omega
      rw [eb, eg, et] at hI
      by_cases h1 : (⟨n + 1, hn⟩ : Fin cfg1.N).val % 8 = 7
      · rw [outsAt1_C V c ⟨n + 1, hn⟩ h0 h1]
        dsimp only
        rw [max_C, den_C, num_C]
        exact body_step V c Pr hP ⟨n + 1, hn⟩ i o _ _ _ hI
      · rw [outsAt1_B V c ⟨n + 1, hn⟩ h0 h1]
        dsimp only
        rw [max_B, den_B, num_B]
        exact body_step V c Pr hP ⟨n + 1, hn⟩ i o _ _ _ hI

/-! ## The output block after a last key tile, and the result array -/

omit hP in
/-- The softmax-weighted sum of the values for query row g of batch b, entry o. -/
def H (b : Fin 4) (g : Fin 2048) (o : Fin 1024) : EReal :=
  ∑ j : Fin 2048, Ideal.div (Ideal.exp (((sR Pr b g j : ℝ) : EReal) - rmax (sR Pr b g) Finset.univ))
      (den (sR Pr b g) Finset.univ (rmax (sR Pr b g) Finset.univ)) * ((vR Pr b o j : ℝ) : EReal)

/-- After a last key tile the output block holds, at row i and entry o, the softmax-weighted sum for that query row. -/
theorem out_at (t : Fin cfg1.N) (h7 : t.val % 8 = 7) (i o : Fin 1024) :
    (outsAt1 V c t.val t.isLt).1 (ix3 (0 : Fin 1) i o) = H Pr (bt t) (gt t i) o := by
  have h0 : ¬ t.val % 8 = 0 := by omega
  have hI := inv_at V c Pr hP t i o
  have hU : below (n := 2048) (256 * (t.val % 8) + 256) = Finset.univ := below_of_le (by omega)
  rw [hU, outsAt1_C V c t h0 h7] at hI
  rw [outsAt1_C V c t h0 h7]
  dsimp only at hI ⊢
  rw [max_C, den_C, num_C] at hI
  rw [out_C, quotient_apply]
  exact hI.div_eq _ _ Finset.univ_nonempty

omit hP in
/-- The result array as one function of the reshaped projections. -/
def Gfun : Buf (Elt Ideal) ((c : Thread nD τ).loc main_v3) := fun q => H Pr (q 0) (q 1) (q 2)

/-- What a last key tile writes back is its block of that function. -/
theorem flushed3_eq (t : Fin cfg1.N) (hf : (cfg1.win 3).flush t = true) :
    (dat1 V c).flushed 3 t = ((cfg1.win 3).blk t).view.read (Elt Ideal) (Gfun c Pr) := by
  have h7 : t.val % 8 = 7 := (flush1_3 t).mp hf
  obtain ⟨e0, e1, e2⟩ := idx1_3 t
  show (cfg1.win 3).cut (grid1.coords t) ((dat1 V c).after 3 t) = _
  rw [after1_3]
  funext j
  obtain ⟨u, i, o, rfl⟩ : ∃ (u : Fin 1) (i : Fin 1024) (o : Fin 1024), j = ix3 u i o := ⟨j 0, j 1, j 2, eq_ix3 j⟩
  obtain rfl : u = 0 := Subsingleton.elim _ _
  rw [View.read_apply]
  show (outsAt1 V c t.val t.isLt).1 (ix3 (0 : Fin 1) i o) = Gfun c Pr (((cfg1.win 3).blk t).view.emb (ix3 (0 : Fin 1) i o))
  rw [out_at V c Pr hP t h7 i o]
  have a0 : (((cfg1.win 3).blk t).view.emb (ix3 (0 : Fin 1) i o)) 0 = bt t :=
    Fin.ext (by show win1_3.index t 0 * 1 + 1 * 0 = t.val / 16; omega)
  have a1 : (((cfg1.win 3).blk t).view.emb (ix3 (0 : Fin 1) i o)) 1 = gt t i :=
    Fin.ext (by show win1_3.index t 1 * 1024 + 1 * i.val = 1024 * ((t.val / 8) % 2) + i.val; omega)
  have a2 : (((cfg1.win 3).blk t).view.emb (ix3 (0 : Fin 1) i o)) 2 = o :=
    Fin.ext (by show win1_3.index t 2 * 1024 + 1 * o.val = o.val; omega)
  show _ = H Pr ((((cfg1.win 3).blk t).view.emb (ix3 (0 : Fin 1) i o)) 0) ((((cfg1.win 3).blk t).view.emb (ix3 (0 : Fin 1) i o)) 1)
    ((((cfg1.win 3).blk t).view.emb (ix3 (0 : Fin 1) i o)) 2)
  rw [a0, a1, a2]

omit hP in
/-- Every entry of the result array is written back by the last key tile of its batch and query tile. -/
theorem cover3 (q : S4x2048x1024.Idx) :
    ∃ t : Fin cfg1.N, (cfg1.win 3).flush t = true ∧ q ∈ ((cfg1.win 3).blk t).view.set := by
  have q0 : (q 0).val < 4 := (q 0).isLt
  have q1 : (q 1).val < 2048 := (q 1).isLt
  have q2 : (q 2).val < 1024 := (q 2).isLt
  have h64 : cfg1.N = 64 := N_1
  obtain ⟨t, ht⟩ : ∃ t : Fin cfg1.N, t.val = 16 * (q 0).val + 8 * ((q 1).val / 1024) + 7 :=
    ⟨⟨16 * (q 0).val + 8 * ((q 1).val / 1024) + 7, by omega⟩, rfl⟩
  obtain ⟨e0, e1, e2⟩ := idx1_3 t
  refine ⟨t, (flush1_3 t).mpr (by omega), ?_⟩
  show q ∈ ((View.whole main_v3).slice (win1_3.rect t)).set
  rw [View.set_slice_whole, Rect.mem_set_unit]
  intro a
  match a with
  | ⟨0, _⟩ =>
    show win1_3.index t 0 * 1 ≤ (q 0).val ∧ (q 0).val < win1_3.index t 0 * 1 + 1
    omega
  | ⟨1, _⟩ =>
    show win1_3.index t 1 * 1024 ≤ (q 1).val ∧ (q 1).val < win1_3.index t 1 * 1024 + 1024
    omega
  | ⟨2, _⟩ =>
    show win1_3.index t 2 * 1024 ≤ (q 2).val ∧ (q 2).val < win1_3.index t 2 * 1024 + 1024
    omega

/-- THE RESULT ARRAY after the region: at (b, g, o) the softmax-weighted sum of the values for query row g of batch b. -/
theorem final3 : (dat1 V c).arrAt 3 cfg1.N = Gfun c Pr :=
  (dat1 V c).arrAt_eq_of_cover 3 (Gfun c Pr) (fun t ht => flushed3_eq V c Pr hP t ht) cover3

end Cert.KernelIdeal.AttnValue

end
-- ==== Proof.Value0.lean ====
/-
  The projection region's result array, on the extended reals.

  At grid point `t` the body multiplies rows `512 t … 512 t + 511` of the flattened activations (8192 x 1024) with each of
  the three 1024 x 1024 weight matrices and stores the three products as the slabs of its 3 x 512 x 1024 output
  block; the sixteen blocks tile the 3 x 8192 x 1024 result array along its row axis. So after the region the array
  holds, at `(p, r, o)`, the sum over `d` of `x (r, d) · w (p, d, o)`:
  * one slab at an index: the changes of format are the identity, the shape casts add or drop a unit axis, and the
    block product into a zero accumulator is the plain sum over the shared axis;
  * the three stores tile the output block, slab `p` from weight matrix `p`;
  * an element of a block sits in its array at block index times block size plus its own coordinate, and the index
    maps (decided over the sixteen points) put the activations' block and the result's block at row block `t`, the
    weights at zero;
  * row `r` is written by point `r / 512`, so the blocks cover the array.
-/
import proofs.«114428_j86569360818603_2_alg».proof.Proof.Region0
import Idealize.ShloMosaic.Lib.Pipeline.Value
import Idealize.ShloMosaic.Lib.ValueIdx
import Idealize.ShloMosaic.PureOps.Ideal.Laws

noncomputable section

namespace Cert.KernelIdeal.Value0

open Idealize.ShloMosaic Idealize.ShloMosaic.TcCoe Idealize.SL.Sem Idealize.ShloMosaic.ValueIdx
open Idealize.ShloMosaic.Pipeline (Dat)
open Cert.KernelIdeal Cert.KernelIdeal.Gen

/-! ## One slab of the body: a row block times one weight matrix -/

/-- The block product at an index: entry `(r, o)` of a 512 x 1024 block times a 1024 x 1024 matrix, into the zero
    accumulator, is the sum over the shared axis of the products. -/
theorem matmul_apply (A : FVec Ideal S512x1024 .bf16) (B : FVec Ideal S1024x1024 .bf16) (r : Fin 512) (o : Fin 1024) :
    matmul dot_S512x1024_S1024x1024_S512x1024_1_0_0_1_n_n none A B (constant (F := Ideal) S512x1024 .f32 0x00000000#32) (ix2 r o)
      = ∑ d : Fin 1024, A (ix2 r d) * B (ix2 d o) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r o) ((contrEquiv1 dot_S512x1024_S1024x1024_S512x1024_1_0_0_1_n_n 1024 rfl rfl).symm k) = ix2 r k :=
    funext fun a => Fin.ext (by
      match a with
      | ⟨0, _⟩ =>
        show (dot_S512x1024_S1024x1024_S512x1024_1_0_0_1_n_n.lhsIdx (ix2 r o) _ 0).val = r.val
        unfold DotDims.lhsIdx
        rw [dif_neg (show ¬(0 : Fin S512x1024.rank) ∈ dot_S512x1024_S1024x1024_S512x1024_1_0_0_1_n_n.lhsBatch by decide),
          dif_pos (show (0 : Fin S512x1024.rank) ∈ dot_S512x1024_S1024x1024_S512x1024_1_0_0_1_n_n.lhsNonContracting by decide)]
        rfl
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r o) ((contrEquiv1 dot_S512x1024_S1024x1024_S512x1024_1_0_0_1_n_n 1024 rfl rfl).symm k) = ix2 k o :=
    funext fun a => Fin.ext (by
      match a with
      | ⟨0, _⟩ => exact (dot_S512x1024_S1024x1024_S512x1024_1_0_0_1_n_n.rhsIdx_val_of_single rfl _ _).trans hk
      | ⟨1, _⟩ =>
        show (dot_S512x1024_S1024x1024_S512x1024_1_0_0_1_n_n.rhsIdx (ix2 r o) _ 1).val = o.val
        unfold DotDims.rhsIdx
        rw [dif_neg (show ¬(1 : Fin S1024x1024.rank) ∈ dot_S512x1024_S1024x1024_S512x1024_1_0_0_1_n_n.rhsBatch by decide),
          dif_pos (show (1 : Fin S1024x1024.rank) ∈ dot_S512x1024_S1024x1024_S512x1024_1_0_0_1_n_n.rhsNonContracting by decide)]
        rfl)
  rw [el, er]

/-- One slab: the row block `x0` and the matrix `w` (carried with a leading unit axis) pass through changes of format
    that are the identity on the extended reals, are multiplied, and the product gets a leading unit axis. At
    `(0, r, o)` that is `∑ d, x0 (r, d) · w (0, d, o)`. -/
theorem slab_apply (h1 : S512x1024.ShapeCasts S512x1024) (h2 : S1x1024x1024.ShapeCasts S1024x1024)
    (h3 : S512x1024.ShapeCasts S1x512x1024) (hb : FTy.bf16.bits < FTy.f32.bits)
    (x0 : FVec Ideal S512x1024 .f32) (w : FVec Ideal S1x1024x1024 .f32) (r : Fin 512) (o : Fin 1024) :
    shapeCast S1x512x1024 (truncf .bf16 (matmul dot_S512x1024_S1024x1024_S512x1024_1_0_0_1_n_n none
        (truncf .bf16 (shapeCast S512x1024 x0 h1) hb) (truncf .bf16 (shapeCast S1024x1024 w h2) hb)
        (constant (F := Ideal) S512x1024 .f32 0x00000000#32)) hb) h3 (ix3 (0 : Fin 1) r o)
      = ∑ d : Fin 1024, x0 (ix2 r d) * w (ix3 (0 : Fin 1) d o) := by
  refine (shapeCast_addUnit_apply ![512, 1024] _ h3 (ix3 (0 : Fin 1) r o)).trans ?_
  have ej : (fun a : Fin 2 => (ix3 (0 : Fin 1) r o) a.succ) = ix2 r o :=
    funext fun a => by match a with | ⟨0, _⟩ => rfl | ⟨1, _⟩ => rfl
  rw [ej, truncf_apply, matmul_apply]
  refine Finset.sum_congr rfl fun d _ => ?_
  rw [truncf_apply, truncf_apply, shapeCast_self]
  refine congrArg (x0 (ix2 r d) * ·) ?_
  refine (shapeCast_dropUnit_apply ![1024, 1024] w h2 (ix2 d o)).trans (congrArg w ?_)
  exact funext fun a => by match a with | ⟨0, _⟩ => rfl | ⟨1, _⟩ => rfl | ⟨2, _⟩ => rfl

theorem pay2_apply (x0 : FVec Ideal S512x1024 .f32) (w : FVec Ideal S1x1024x1024 .f32) (r : Fin 512) (o : Fin 1024) :
    k0_pay2 (F := Ideal) x0 w (ix3 (0 : Fin 1) r o) = ∑ d : Fin 1024, x0 (ix2 r d) * w (ix3 (0 : Fin 1) d o) :=
  slab_apply _ _ _ _ x0 w r o
theorem pay3_apply (x0 : FVec Ideal S512x1024 .f32) (w : FVec Ideal S1x1024x1024 .f32) (r : Fin 512) (o : Fin 1024) :
    k0_pay3 (F := Ideal) x0 w (ix3 (0 : Fin 1) r o) = ∑ d : Fin 1024, x0 (ix2 r d) * w (ix3 (0 : Fin 1) d o) :=
  slab_apply _ _ _ _ x0 w r o
theorem pay4_apply (x0 : FVec Ideal S512x1024 .f32) (w : FVec Ideal S1x1024x1024 .f32) (r : Fin 512) (o : Fin 1024) :
    k0_pay4 (F := Ideal) x0 w (ix3 (0 : Fin 1) r o) = ∑ d : Fin 1024, x0 (ix2 r d) * w (ix3 (0 : Fin 1) d o) :=
  slab_apply _ _ _ _ x0 w r o

/-! ## The output block after the body -/

/-- The zero offsets of the row block's load. -/
theorem hz2 : (![0, 0] : Fin 2 → Nat) = fun _ => 0 := funext fun a => by fin_cases a <;> rfl

/-- The three stores tile the output block, slab `p` written from the row block and weight matrix `p`: at `(p, r, o)`
    the block holds `∑ d, x0 (r, d) · x1 (p, d, o)`. -/
theorem out0_2_apply (x0 : Vec Ideal S512x1024 .f32) (x1 : Vec Ideal S3x1024x1024 .f32) (p : Fin 3) (r : Fin 512) (o : Fin 1024) :
    Region0.out0_2 (F := Ideal) x0 x1 (ix3 p r o) = ∑ d : Fin 1024, x0 (ix2 r d) * x1 (ix3 p d o) := by
  unfold Region0.out0_2
  have hc := Region0.cover0_2 (F := Ideal) (k0_pay4 (View.ld x0 Region0.rx) (View.ld x1 Region0.rw2))
    (k0_pay3 (View.ld x0 Region0.rx) (View.ld x1 Region0.rw1)) (k0_pay2 (View.ld x0 Region0.rx) (View.ld x1 Region0.rw0)) (ix3 p r o)
  have key := View.canon_apply_of_pieces (Val := Elt Ideal)
    (fun y : S3x512x1024.Idx => ∑ d : Fin 1024, x0 (ix2 (y 1) d) * x1 (ix3 (y 0) d (y 2))) _ ?_ (ix3 p r o) hc
  · exact key
  intro q hq x
  simp only [List.mem_cons, List.mem_singleton, List.not_mem_nil, or_false] at hq
  rcases hq with rfl | rfl | rfl
  · obtain ⟨z, r', o', rfl⟩ : ∃ (z : Fin 1) (r' : Fin 512) (o' : Fin 1024), x = ix3 z r' o' := ⟨x 0, x 1, x 2, eq_ix3 x⟩
    obtain rfl : z = 0 := Subsingleton.elim _ _
    have e : Region0.ro2.emb (ix3 (0 : Fin 1) r' o') = ix3 (2 : Fin 3) r' o' := funext fun a => Fin.ext (by
      match a with
      | ⟨0, _⟩ => rfl
      | ⟨1, _⟩ => show 0 + 1 * r'.val = r'.val; omega
      | ⟨2, _⟩ => show 0 + 1 * o'.val = o'.val; omega)
    show k0_pay4 (View.ld x0 Region0.rx) (View.ld x1 Region0.rw2) (ix3 (0 : Fin 1) r' o') = _
    rw [e, pay4_apply, View.ld_unit_zero (S := S512x1024) hz2]
    refine Finset.sum_congr rfl fun d _ => congrArg (x0 (ix2 r' d) * ·) (congrArg x1 (funext fun a => Fin.ext ?_))
    match a with
    | ⟨0, _⟩ => rfl
    | ⟨1, _⟩ => show 0 + 1 * d.val = d.val; omega
    | ⟨2, _⟩ => show 0 + 1 * o'.val = o'.val; omega
  · obtain ⟨z, r', o', rfl⟩ : ∃ (z : Fin 1) (r' : Fin 512) (o' : Fin 1024), x = ix3 z r' o' := ⟨x 0, x 1, x 2, eq_ix3 x⟩
    obtain rfl : z = 0 := Subsingleton.elim _ _
    have e : Region0.ro1.emb (ix3 (0 : Fin 1) r' o') = ix3 (1 : Fin 3) r' o' := funext fun a => Fin.ext (by
      match a with
      | ⟨0, _⟩ => rfl
      | ⟨1, _⟩ => show 0 + 1 * r'.val = r'.val; omega
      | ⟨2, _⟩ => show 0 + 1 * o'.val = o'.val; omega)
    show k0_pay3 (View.ld x0 Region0.rx) (View.ld x1 Region0.rw1) (ix3 (0 : Fin 1) r' o') = _
    rw [e, pay3_apply, View.ld_unit_zero (S := S512x1024) hz2]
    refine Finset.sum_congr rfl fun d _ => congrArg (x0 (ix2 r' d) * ·) (congrArg x1 (funext fun a => Fin.ext ?_))
    match a with
    | ⟨0, _⟩ => rfl
    | ⟨1, _⟩ => show 0 + 1 * d.val = d.val; omega
    | ⟨2, _⟩ => show 0 + 1 * o'.val = o'.val; omega
  · obtain ⟨z, r', o', rfl⟩ : ∃ (z : Fin 1) (r' : Fin 512) (o' : Fin 1024), x = ix3 z r' o' := ⟨x 0, x 1, x 2, eq_ix3 x⟩
    obtain rfl : z = 0 := Subsingleton.elim _ _
    have e : Region0.ro0.emb (ix3 (0 : Fin 1) r' o') = ix3 (0 : Fin 3) r' o' := funext fun a => Fin.ext (by
      match a with
      | ⟨0, _⟩ => rfl
      | ⟨1, _⟩ => show 0 + 1 * r'.val = r'.val; omega
      | ⟨2, _⟩ => show 0 + 1 * o'.val = o'.val; omega)
    show k0_pay2 (View.ld x0 Region0.rx) (View.ld x1 Region0.rw0) (ix3 (0 : Fin 1) r' o') = _
    rw [e, pay2_apply, View.ld_unit_zero (S := S512x1024) hz2]
    refine Finset.sum_congr rfl fun d _ => congrArg (x0 (ix2 r' d) * ·) (congrArg x1 (funext fun a => Fin.ext ?_))
    match a with
    | ⟨0, _⟩ => rfl
    | ⟨1, _⟩ => show 0 + 1 * d.val = d.val; omega
    | ⟨2, _⟩ => show 0 + 1 * o'.val = o'.val; omega

/-! ## From the blocks to the array -/

/-- The three projections as one array: slab `p`, row `r`, column `o` is row `r` of the flattened activations `x` times
    column `o` of weight matrix `p` of `w`. -/
def projections (x : S8192x1024.Idx → EReal) (w : S3x1024x1024.Idx → EReal) : S3x8192x1024.Idx → EReal := fun i =>
  ∑ d : Fin 1024, x (ix2 (i 1) d) * w (ix3 (i 0) d (i 2))

theorem projections_apply (x : S8192x1024.Idx → EReal) (w : S3x1024x1024.Idx → EReal) (p : Fin 3) (r : Fin 8192) (o : Fin 1024) :
    projections x w (ix3 p r o) = ∑ d : Fin 1024, x (ix2 r d) * w (ix3 p d o) := rfl

/-- The printed index maps over the sixteen grid points: the row block of the activations and of the result moves with
    the point, the weights stay, and the result's block spans all three slabs. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- At point `t` the body, run on block `t` of the activations and on the weights, leaves block `t` of the
    projections: an element of a block sits in its array at block index times block size plus its own coordinate. -/
theorem block_eq (x : S8192x1024.Idx → EReal) (w : S3x1024x1024.Idx → EReal) (t : Fin cfg0.N)
    (y : ((cfg0.win 2).xblock (grid0.coords t)).Idx) :
    Region0.out0_2 (F := Ideal) (((cfg0.win 0).blk t).view.read (Elt Ideal) x) (((cfg0.win 1).blk t).view.read (Elt Ideal) w)
        ((cfg0.win 2).xinj (grid0.coords t) y)
      = projections x w (((cfg0.win 2).blk t).view.emb y) := by
  obtain ⟨e00, e01, e10, e11, e12, e20, e21, e22⟩ := idx_facts t
  obtain ⟨p, r, o, hy⟩ : ∃ (p : Fin 3) (r : Fin 512) (o : Fin 1024), (cfg0.win 2).xinj (grid0.coords t) y = ix3 p r o :=
    ⟨y 0, y 1, y 2, funext fun a => by match a with | ⟨0, _⟩ => rfl | ⟨1, _⟩ => rfl | ⟨2, _⟩ => rfl⟩
  have hp : (y 0).val = p.val := congrArg Fin.val (congrFun hy 0)
  have hr : (y 1).val = r.val := congrArg Fin.val (congrFun hy 1)
  have ho : (y 2).val = o.val := congrArg Fin.val (congrFun hy 2)
  rw [hy, out0_2_apply]
  unfold projections
  refine Finset.sum_congr rfl fun d _ => ?_
  show x (((cfg0.win 0).blk t).view.emb (ix2 r d)) * w (((cfg0.win 1).blk t).view.emb (ix3 p d o)) = _
  have h0 : ((cfg0.win 0).blk t).view.emb (ix2 r d) = ix2 ((((cfg0.win 2).blk t).view.emb y) 1) d := by
    funext a; apply Fin.ext
    match a with
    | ⟨0, _⟩ => show win0_0.index t (0 : Fin 2) * 512 + 1 * r.val = win0_2.index t (1 : Fin 3) * 512 + 1 * (y 1).val; rw [e00, e21, hr]
    | ⟨1, _⟩ => show win0_0.index t (1 : Fin 2) * 1024 + 1 * d.val = d.val; rw [e01]; omega
  have h1 : ((cfg0.win 1).blk t).view.emb (ix3 p d o) = ix3 ((((cfg0.win 2).blk t).view.emb y) 0) d ((((cfg0.win 2).blk t).view.emb y) 2) := by
    funext a; apply Fin.ext
    match a with
    | ⟨0, _⟩ => show win0_1.index t (0 : Fin 3) * 3 + 1 * p.val = win0_2.index t (0 : Fin 3) * 3 + 1 * (y 0).val; rw [e10, e20, hp]
    | ⟨1, _⟩ => show win0_1.index t (1 : Fin 3) * 1024 + 1 * d.val = d.val; rw [e11]; omega
    | ⟨2, _⟩ => show win0_1.index t (2 : Fin 3) * 1024 + 1 * o.val = win0_2.index t (2 : Fin 3) * 1024 + 1 * (y 2).val; rw [e12, e22, ho]
  exact congrArg₂ (· * ·) (congrArg x h0) (congrArg w h1)

/-- Every row of every slab is in the block of the point that holds its row block. -/
theorem cover (i : S3x8192x1024.Idx) :
    ∃ t : Fin cfg0.N, (cfg0.win 2).flush t = true ∧ i ∈ ((cfg0.win 2).blk t).view.set := by
  have h0 : (i 0).val < 3 := (i 0).isLt
  have h1 : (i 1).val < 8192 := (i 1).isLt
  have h2 : (i 2).val < 1024 := (i 2).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, e20, e21, e22⟩ := idx_facts t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 3) * 3 ≤ (i 0).val ∧ (i 0).val < win0_2.index t (0 : Fin 3) * 3 + 3
    rw [e20]; omega
  | ⟨1, _⟩ =>
    show win0_2.index t (1 : Fin 3) * 512 ≤ (i 1).val ∧ (i 1).val < win0_2.index t (1 : Fin 3) * 512 + 512
    rw [e21, ht]; omega
  | ⟨2, _⟩ =>
    show win0_2.index t (2 : Fin 3) * 1024 ≤ (i 2).val ∧ (i 2).val < win0_2.index t (2 : Fin 3) * 1024 + 1024
    rw [e22]; omega

-- the contents of the core's buffers when the region is entered
variable (V : (c : Dev nD) → (b : Ref sig .tc) → Buf (Elt Ideal) ((c : Thread nD τ).loc b))

/-- What point `t` writes back is block `t` of the projections of the arrays the region is entered with. -/
theorem flushed_eq (c : Dev nD) (t : Fin cfg0.N) :
    (Region0.dat0 (F := Ideal) V c).flushed 2 t
      = ((cfg0.win 2).blk t).view.read (Elt Ideal) (projections (V c main_v0) (V c main_arg1)) := by
  show (cfg0.win 2).cut (grid0.coords t) ((Region0.dat0 (F := Ideal) V c).after 2 t) = _
  rw [Region0.after0_2]
  funext y
  exact block_eq (V c main_v0) (V c main_arg1) t y

/-- After the region the result array holds the three projections. -/
theorem array_eq (c : Dev nD) :
    (Region0.dat0 (F := Ideal) V c).arrAt 2 cfg0.N = projections (V c main_v0) (V c main_arg1) :=
  (Region0.dat0 (F := Ideal) V c).arrAt_eq_of_cover 2 (projections (V c main_v0) (V c main_arg1))
    (fun t _ => flushed_eq V c t) cover

/-- At an index: slab `p`, row `r`, column `o` of the result array is `∑ d, x (r, d) · w (p, d, o)` of the flattened
    activations `x` and the weights `w` as the region finds them. -/
theorem array_apply (c : Dev nD) (p : Fin 3) (r : Fin 8192) (o : Fin 1024) :
    (Region0.dat0 (F := Ideal) V c).arrAt 2 cfg0.N (ix3 p r o)
      = projections (V c main_v0) (V c main_arg1) (ix3 p r o) :=
  congrFun (array_eq V c) (ix3 p r o)

end Cert.KernelIdeal.Value0

end
-- ==== Proof.Reshapes.lean ====
/-
  The two re-layings of the program read one entry at a time.

  Before the projection region the activations [4, 2048, 1024] are laid out again as [8192, 1024]; before the attention
  region the projections [3, 8192, 1024] are laid out again as [3, 4, 2048, 1024]. Neither moves an element in row-major
  order: row r = 2048 · b + s of the flat form is row s of batch b. The weights are not written by either.
-/
import proofs.«114428_j86569360818603_2_alg».proof.Proof.Whole
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Reshapes

open Idealize.ShloMosaic Idealize.ShloMosaic.TcCoe Idealize.ShloMosaic.ValueIdx
open Idealize.SL.Sem
open Cert.KernelIdeal Cert.KernelIdeal.Gen Cert.KernelIdeal.Whole

variable (m : (ℓ : Loc nD τ sig) → Buf (Elt Ideal) ℓ) (ρ : Dev nD → PrngReg)

/-! ## The activations laid out flat -/

/-- At the projection region's entry the flat activations are the launch activations recast. -/
theorem flat_eq (c : Dev nD) :
    (V1 m ρ c main_v0 : S8192x1024.Idx → EReal)
      = shapeCast S8192x1024 (m ((c.tc : Thread nD τ).loc main_arg0) : S4x2048x1024.Idx → EReal)
          Facts₀.shapeCasts_S4x2048x1024_S8192x1024 := by
  show StableHlo.after hostOps0 (W0 m ρ c) (Proc.devRef .tc main_v0) = _
  after_results
  rfl

/-- Row r = 2048 · b + s of the flat activations is row s of batch b of the launch activations. -/
theorem flat_apply (c : Dev nD) (r : Fin 8192) (b : Fin 4) (s : Fin 2048) (d : Fin 1024) (h : r.val = 2048 * b.val + s.val) :
    (V1 m ρ c main_v0 : S8192x1024.Idx → EReal) (ix2 r d)
      = (m ((c.tc : Thread nD τ).loc main_arg0) : S4x2048x1024.Idx → EReal) (ix3 b s d) := by
  rw [flat_eq m ρ c]
  refine shapeCast_apply (s := S4x2048x1024) (t := S8192x1024) _ _ (ix2 r d) (ix3 b s d) ?_
  rw [Shape.rowMajor_val_three, Shape.rowMajor_val_two]
  show (b.val * 2048 + s.val) * 1024 + d.val = r.val * 1024 + d.val
  omega

/-! ## The weights are not written -/

/-- At the projection region's entry the weights are as launched. -/
theorem weights_eq (c : Dev nD) : V1 m ρ c main_arg1 = m ((c.tc : Thread nD τ).loc main_arg1) := by
  show StableHlo.after hostOps0 (W0 m ρ c) (Proc.devRef .tc main_arg1) = _
  after_results

/-! ## The projections laid out by batch -/

/-- At the attention region's entry the projections by batch are the projection region's result array recast. -/
theorem byBatch_eq (c : Dev nD) :
    (V3 m ρ c main_v2 : S3x4x2048x1024.Idx → EReal)
      = shapeCast S3x4x2048x1024 ((Region0.dat0 (V1 m ρ) c).arrAt 2 cfg0.N : S3x8192x1024.Idx → EReal)
          Facts₀.shapeCasts_S3x8192x1024_S3x4x2048x1024 := by
  have e : W2 m ρ c (Proc.devRef .tc main_v1) = (Region0.dat0 (V1 m ρ) c).arrAt 2 cfg0.N := W2_arr m ρ c 2
  show StableHlo.after hostOps1 (W2 m ρ c) (Proc.devRef .tc main_v2) = _
  after_results
  rw [e]
  rfl

/-- Row s of batch b of projection p is row r = 2048 · b + s of the projection region's result array. -/
theorem byBatch_apply (c : Dev nD) (p : Fin 3) (b : Fin 4) (s : Fin 2048) (o : Fin 1024) (r : Fin 8192)
    (h : r.val = 2048 * b.val + s.val) :
    (V3 m ρ c main_v2 : S3x4x2048x1024.Idx → EReal) (ix4 p b s o)
      = ((Region0.dat0 (V1 m ρ) c).arrAt 2 cfg0.N : S3x8192x1024.Idx → EReal) (ix3 p r o) := by
  rw [byBatch_eq m ρ c]
  refine shapeCast_apply (s := S3x8192x1024) (t := S3x4x2048x1024) _ _ (ix4 p b s o) (ix3 p r o) ?_
  rw [Shape.rowMajor_val_three, Shape.rowMajor_val_four]
  show (p.val * 8192 + r.val) * 1024 + o.val = ((p.val * 4 + b.val) * 2048 + s.val) * 1024 + o.val
  omega

end Cert.KernelIdeal.Reshapes

end
-- ==== Proof.Spec.lean ====
/-
  What the program computes, as one function of its two argument arrays, index by index, on the extended reals.

  `x` is a batch of 4 sequences of 2048 rows of 1024 numbers; `w` is three 1024 x 1024 matrices. Row `s` of batch
  `b` is projected by each matrix (`proj p b s o = ∑ d, x(b,s,d) · w(p,d,o)`): matrix 0 gives the keys, matrix 1 the
  queries, matrix 2 the values. The score of query row `i` against key row `j` is their inner product times 1/32
  (the f32 word `0x3D000000`; 32 is the square root of the row length 1024). Each query row's scores are turned into
  weights by a softmax — the row's maximum `rowMax` (from `-∞`) is subtracted, the exponential taken, and the result
  divided by the row's sum `rowSum` — and the result at `(b, i, o)` is the weighted sum of the value rows' entry `o`.
-/
import Idealize.ShloMosaic.Lib.ValueIdx

noncomputable section

namespace Cert.Attn

open Idealize.ShloMosaic Idealize.ShloMosaic.ValueIdx

/-- The shape of the activations and of the result: 4 x 2048 x 1024. -/
abbrev SX : Shape := ⟨3, ![4, 2048, 1024]⟩
/-- The shape of the weights: 3 x 1024 x 1024. -/
abbrev SW : Shape := ⟨3, ![3, 1024, 1024]⟩

variable (x : SX.Idx → EReal) (w : SW.Idx → EReal)

/-- Projection `p` of row `s` of batch `b`, entry `o`. -/
def proj (p : Fin 3) (b : Fin 4) (s : Fin 2048) (o : Fin 1024) : EReal :=
  ∑ d : Fin 1024, x (ix3 b s d) * w (ix3 p d o)

/-- The scaled score of query row `i` against key row `j`. -/
def score (b : Fin 4) (i j : Fin 2048) : EReal :=
  (∑ o : Fin 1024, proj x w 1 b i o * proj x w 0 b j o) * Ideal.ofBits .f32 0x3D000000#32

/-- The maximum of query row `i`'s scores, from `-∞`. -/
def rowMax (b : Fin 4) (i : Fin 2048) : EReal := Finset.univ.sup fun j : Fin 2048 => score x w b i j

/-- The unnormalised softmax weight of key row `j` for query row `i`. -/
def weight (b : Fin 4) (i j : Fin 2048) : EReal := Ideal.exp (score x w b i j - rowMax x w b i)

/-- The sum of query row `i`'s weights. -/
def rowSum (b : Fin 4) (i : Fin 2048) : EReal := ∑ j : Fin 2048, weight x w b i j

/-- The result: at `(b, i, o)` the softmax-weighted sum over the key rows `j` of the value rows' entry `o`. -/
def G : SX.Idx → EReal := fun q =>
  ∑ j : Fin 2048, Ideal.div (weight x w (q 0) (q 1) j) (rowSum x w (q 0) (q 1)) * proj x w 2 (q 0) j (q 2)

end Cert.Attn

end
-- ==== Proof.SpecBridge.lean ====
/-
  On real arrays the specification is the real-valued model's softmax-weighted sum.

  For arrays `xr`, `wr` of reals, coerced into the extended reals, every stage of the specification is the coercion of
  the same stage computed in the reals, because the coercion commutes with products and finite sums: the projections
  (`PrOf`), the scaled scores (the f32 word `0x3D000000` denotes `1 / 32`), hence the row maximum (a supremum of coerced
  reals), the weights (the exponential of a score minus the row maximum), the row sums, and the weighted sum of the
  value rows.
-/
import proofs.«114428_j86569360818603_2_alg».proof.Proof.Spec
import proofs.«114428_j86569360818603_2_alg».proof.Proof.AttnValue

noncomputable section

namespace Cert.SpecBridge

open Idealize.ShloMosaic Idealize.ShloMosaic.ValueIdx Idealize.ShloMosaic.OnlineSoftmax
open Cert.Attn (SX SW proj score rowMax weight rowSum G)
open Cert.KernelIdeal.AttnValue (sR vR H)

/-- The three projections of real arrays: `PrOf xr wr p b s o = ∑ d, xr (b, s, d) · wr (p, d, o)`. -/
def PrOf (xr : SX.Idx → ℝ) (wr : SW.Idx → ℝ) : Fin 3 → Fin 4 → Fin 2048 → Fin 1024 → ℝ :=
  fun p b s o => ∑ d : Fin 1024, xr (ix3 b s d) * wr (ix3 p d o)

/-- The f32 word `0x3D000000` denotes `1 / 32`. -/
theorem ofBits_inv32 : Ideal.ofBits .f32 0x3D000000#32 = ((1 / 32 : ℝ) : EReal) := by
  simp [Ideal.ofBits, Ideal.ieee, -EReal.coe_mul]; norm_num

variable (xr : SX.Idx → ℝ) (wr : SW.Idx → ℝ)

/-- A projection of real arrays is the real projection: the coercion commutes with products and finite sums. -/
theorem proj_real (p : Fin 3) (b : Fin 4) (s : Fin 2048) (o : Fin 1024) :
    proj (fun i => ((xr i : ℝ) : EReal)) (fun i => ((wr i : ℝ) : EReal)) p b s o = ((PrOf xr wr p b s o : ℝ) : EReal) := by
  unfold Cert.Attn.proj PrOf
  rw [coe_sum]
  exact Finset.sum_congr rfl fun d _ => (EReal.coe_mul _ _).symm

/-- The scaled score of real arrays is the real scaled score. -/
theorem score_real (b : Fin 4) (i j : Fin 2048) :
    score (fun i => ((xr i : ℝ) : EReal)) (fun i => ((wr i : ℝ) : EReal)) b i j = ((sR (PrOf xr wr) b i j : ℝ) : EReal) := by
  unfold Cert.Attn.score sR
  have h : (∑ o : Fin 1024, proj (fun i => ((xr i : ℝ) : EReal)) (fun i => ((wr i : ℝ) : EReal)) 1 b i o
        * proj (fun i => ((xr i : ℝ) : EReal)) (fun i => ((wr i : ℝ) : EReal)) 0 b j o)
      = ∑ e : Fin 1024, ((PrOf xr wr 1 b i e * PrOf xr wr 0 b j e : ℝ) : EReal) :=
    Finset.sum_congr rfl fun e _ => by rw [proj_real, proj_real, EReal.coe_mul]
  rw [h, ofBits_inv32, EReal.coe_mul, coe_sum]

/-- The row maximum is the supremum of the coerced real scores. -/
theorem rowMax_real (b : Fin 4) (i : Fin 2048) :
    rowMax (fun i => ((xr i : ℝ) : EReal)) (fun i => ((wr i : ℝ) : EReal)) b i = rmax (sR (PrOf xr wr) b i) Finset.univ := by
  unfold Cert.Attn.rowMax rmax
  exact Finset.sup_congr rfl fun j _ => score_real xr wr b i j

/-- The unnormalised weight. -/
theorem weight_real (b : Fin 4) (i j : Fin 2048) :
    weight (fun i => ((xr i : ℝ) : EReal)) (fun i => ((wr i : ℝ) : EReal)) b i j
      = Ideal.exp (((sR (PrOf xr wr) b i j : ℝ) : EReal) - rmax (sR (PrOf xr wr) b i) Finset.univ) := by
  unfold Cert.Attn.weight
  rw [score_real, rowMax_real]

/-- The row's sum of weights is the denominator at the row maximum. -/
theorem rowSum_real (b : Fin 4) (i : Fin 2048) :
    rowSum (fun i => ((xr i : ℝ) : EReal)) (fun i => ((wr i : ℝ) : EReal)) b i
      = den (sR (PrOf xr wr) b i) Finset.univ (rmax (sR (PrOf xr wr) b i) Finset.univ) := by
  unfold Cert.Attn.rowSum den
  exact Finset.sum_congr rfl fun j _ => weight_real xr wr b i j

/-- On real arrays the specification is the softmax-weighted sum of the real model. -/
theorem G_eq_H (q : SX.Idx) :
    G (fun i => ((xr i : ℝ) : EReal)) (fun i => ((wr i : ℝ) : EReal)) q = H (PrOf xr wr) (q 0) (q 1) (q 2) := by
  obtain ⟨b, i, o, rfl⟩ : ∃ (b : Fin 4) (i : Fin 2048) (o : Fin 1024), q = ix3 b i o := ⟨q 0, q 1, q 2, eq_ix3 q⟩
  show (∑ j : Fin 2048, Ideal.div (weight (fun i => ((xr i : ℝ) : EReal)) (fun i => ((wr i : ℝ) : EReal)) b i j)
      (rowSum (fun i => ((xr i : ℝ) : EReal)) (fun i => ((wr i : ℝ) : EReal)) b i)
      * proj (fun i => ((xr i : ℝ) : EReal)) (fun i => ((wr i : ℝ) : EReal)) 2 b j o) = H (PrOf xr wr) b i o
  unfold H
  refine Finset.sum_congr rfl fun j _ => ?_
  rw [weight_real, rowSum_real, proj_real]
  rfl

end Cert.SpecBridge

end
-- ==== Proof.Bridge.lean ====
/-
  From the two argument arrays to the result array.

  With both argument arrays real (`x = ↑xr`, `w = ↑wr`), the projection region's result array is, slab by slab, the
  product of the flattened activations with a weight matrix, so after the reshape that lays the rows out by batch the
  attention region reads real numbers: projection `p` of row `s` of batch `b`, entry `o`, is `∑ d, xr (b, s, d) · wr (p, d, o)`.
  The attention region then leaves, in the result array, the softmax-weighted sums of the values — the specification
  `Cert.Attn.G` of the two argument arrays.
-/
import proofs.«114428_j86569360818603_2_alg».proof.Proof.Whole
import proofs.«114428_j86569360818603_2_alg».proof.Proof.AttnValue
import proofs.«114428_j86569360818603_2_alg».proof.Proof.Value0
import proofs.«114428_j86569360818603_2_alg».proof.Proof.Reshapes
import proofs.«114428_j86569360818603_2_alg».proof.Proof.SpecBridge

noncomputable section

namespace Cert.KernelIdeal.Bridge

open Idealize.ShloMosaic Idealize.ShloMosaic.TcCoe Idealize.SL.Sem Idealize.ShloMosaic.ValueIdx
open Idealize.ShloMosaic.OnlineSoftmax
open Cert.KernelIdeal Cert.KernelIdeal.Gen Cert.KernelIdeal.Region1 Cert.KernelIdeal.Whole Cert.KernelIdeal.AttnValue
open Cert.KernelIdeal.Reshapes Cert.SpecBridge

variable (m : (ℓ : Loc nD τ sig) → Buf (Elt Ideal) ℓ) (ρ : Dev nD → PrngReg) (c : Dev nD)
variable (xr : Cert.Attn.SX.Idx → ℝ) (wr : Cert.Attn.SW.Idx → ℝ)
variable (hx : m ((c.tc : Thread nD τ).loc main_arg0) = fun i => ((xr i : ℝ) : EReal))
variable (hw : m ((c.tc : Thread nD τ).loc main_arg1) = fun i => ((wr i : ℝ) : EReal))
include hx hw

/-- The product of the flattened activations with weight matrix p, at row 2048 · b + s and entry o, is real. -/
theorem projections_at (p : Fin 3) (b : Fin 4) (s : Fin 2048) (o : Fin 1024) (r : Fin 8192) (hr : r.val = 2048 * b.val + s.val) :
    Value0.projections (V1 m ρ c main_v0) (V1 m ρ c main_arg1) (ix3 p r o) = ((PrOf xr wr p b s o : ℝ) : EReal) := by
  rw [Value0.projections_apply]
  unfold PrOf
  rw [coe_sum]
  refine Finset.sum_congr rfl fun d _ => ?_
  rw [flat_apply m ρ c r b s d hr, weights_eq m ρ c, hx, hw, EReal.coe_mul]

/-- What the attention region reads is real: projection p of row s of batch b, entry o, is the sum over the features of
    the activation times the weight. -/
theorem projections_real (p : Fin 3) (b : Fin 4) (s : Fin 2048) (o : Fin 1024) :
    (V3 m ρ c main_v2 : S3x4x2048x1024.Idx → EReal) (ix4 p b s o) = ((PrOf xr wr p b s o : ℝ) : EReal) := by
  have hb := b.isLt
  have hs := s.isLt
  exact ((byBatch_apply m ρ c p b s o ⟨2048 * b.val + s.val, by omega⟩ rfl).trans
    (Value0.array_apply (V1 m ρ) c p ⟨2048 * b.val + s.val, by omega⟩ o)).trans
    (projections_at m ρ c xr wr hx hw p b s o ⟨2048 * b.val + s.val, by omega⟩ rfl)

/-- The result array after the run is the specification of the two argument arrays. -/
theorem result_eq_G :
    (dat1 (V3 m ρ) c).arrAt 3 cfg1.N
      = Cert.Attn.G (m ((c.tc : Thread nD τ).loc main_arg0)) (m ((c.tc : Thread nD τ).loc main_arg1)) := by
  rw [final3 (V3 m ρ) c (PrOf xr wr) (projections_real m ρ c xr wr hx hw)]
  funext q
  rw [hx, hw]
  exact (G_eq_H xr wr q).symm

end Cert.KernelIdeal.Bridge

end
-- ==== Proof.RefValue.lean ====
/-
  The reference program's result, as a function of its two argument arrays, is the specification `Cert.Attn.G`.

  The reference slices the weight array into its three 1024 x 1024 matrices, multiplies every row of `x` by each of
  them (keys, queries, values), takes the inner products of the query rows with the key rows, scales them by
  `1 / sqrt 1024`, and applies a softmax along the key axis: the row maximum (a fold of `max` from `-∞`, then one
  more `max` with `-∞`) is subtracted, the exponential taken, each row divided by its sum (from `0`), and the
  result multiplied with the value rows. Read index by index on the extended reals this is the specification:
  * a slice followed by dropping its unit axis reads matrix `p` at `(d, o)` — the row-major position
    `d * 1024 + o` splits back into `d` and `o`;
  * the f32 word of 1024 denotes 1024, its square root is 32, and `1 / 32` is what the word `0x3D000000` denotes;
  * a fold of `max` from `-∞` over a finite family is its supremum, and `max (-∞) y = y`;
  * the sum from the f32 zero is the sum.
-/
import proofs.«114428_j86569360818603_2_alg».proof.Proof.Gen.ReferenceIdeal.Read
import proofs.«114428_j86569360818603_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Attn (proj score rowMax weight rowSum G)

/-! ## The constants -/

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem scale_eq (i : S_.Idx) : val_main_v10 (F := Ideal) i = Ideal.ofBits .f32 0x3D000000#32 := by
  rw [val_main_v10_apply, val_main_v9_apply, val_main_cst_apply, val_main_cst_0_apply]
  simp only [Ideal.hostDivf_def, Ideal.hostUnary_sqrt_def, Ideal.ofBits_def]
  rw [ofBits_1024, ofBits_inv32, Ideal.ofBits_one_f32, Ideal.sqrt_coe, if_neg (by norm_num),
    show (1024 : ℝ) = 32 ^ 2 by norm_num, Real.sqrt_sq (by norm_num), Ideal.div_coe (by norm_num), one_mul]

variable (x : (⟨S4x2048x1024, .f32⟩ : BufTy).Contents (Elt Ideal)) (w : (⟨S3x1024x1024, .f32⟩ : BufTy).Contents (Elt Ideal))

/-! ## The three weight matrices -/

theorem w0_eq (d o : Fin 1024) : val_main_v1 (F := Ideal) w (ix2 d o) = w (ix3 (0 : Fin 3) d o) := by
  rw [val_main_v1_apply, val_main_v0_apply]
  refine congrArg w (funext fun a => Fin.ext ?_)
  have hd := d.isLt
  have ho := o.isLt
  match a with
  | ⟨0, _⟩ => rfl
  | ⟨1, _⟩ => show (d.val * 1024 + o.val) / 1024 % 1024 = d.val; omega
  | ⟨2, _⟩ => show (d.val * 1024 + o.val) % 1024 = o.val; omega

theorem w1_eq (d o : Fin 1024) : val_main_v4 (F := Ideal) w (ix2 d o) = w (ix3 (1 : Fin 3) d o) := by
  rw [val_main_v4_apply, val_main_v3_apply]
  refine congrArg w (funext fun a => Fin.ext ?_)
  have hd := d.isLt
  have ho := o.isLt
  match a with
  | ⟨0, _⟩ => rfl
  | ⟨1, _⟩ => show (d.val * 1024 + o.val) / 1024 % 1024 = d.val; omega
  | ⟨2, _⟩ => show (d.val * 1024 + o.val) % 1024 = o.val; omega

theorem w2_eq (d o : Fin 1024) : val_main_v7 (F := Ideal) w (ix2 d o) = w (ix3 (2 : Fin 3) d o) := by
  rw [val_main_v7_apply, val_main_v6_apply]
  refine congrArg w (funext fun a => Fin.ext ?_)
  have hd := d.isLt
  have ho := o.isLt
  match a with
  | ⟨0, _⟩ => rfl
  | ⟨1, _⟩ => show (d.val * 1024 + o.val) / 1024 % 1024 = d.val; omega
  | ⟨2, _⟩ => show (d.val * 1024 + o.val) % 1024 = o.val; omega

/-! ## The projections -/

theorem keys_eq (b : Fin 4) (s : Fin 2048) (o : Fin 1024) :
    val_main_v2 (F := Ideal) x w (ix3 b s o) = proj x w 0 b s o := by
  rw [val_main_v2_apply]
  unfold Cert.Attn.proj
  refine Finset.sum_congr rfl fun k _ => ?_
  have e1 : lidx_main_v2 (ix3 b s o) k = ix3 b s k :=
    funext fun a => Fin.ext (by match a with | ⟨0, _⟩ => rfl | ⟨1, _⟩ => rfl | ⟨2, _⟩ => rfl)
  have e2 : ridx_main_v2 (ix3 b s o) k = ix2 k o :=
    funext fun a => Fin.ext (by match a with | ⟨0, _⟩ => rfl | ⟨1, _⟩ => rfl)
  rw [e1, e2, w0_eq]

theorem queries_eq (b : Fin 4) (s : Fin 2048) (o : Fin 1024) :
    val_main_v5 (F := Ideal) x w (ix3 b s o) = proj x w 1 b s o := by
  rw [val_main_v5_apply]
  unfold Cert.Attn.proj
  refine Finset.sum_congr rfl fun k _ => ?_
  have e1 : lidx_main_v5 (ix3 b s o) k = ix3 b s k :=
    funext fun a => Fin.ext (by match a with | ⟨0, _⟩ => rfl | ⟨1, _⟩ => rfl | ⟨2, _⟩ => rfl)
  have e2 : ridx_main_v5 (ix3 b s o) k = ix2 k o :=
    funext fun a => Fin.ext (by match a with | ⟨0, _⟩ => rfl | ⟨1, _⟩ => rfl)
  rw [e1, e2, w1_eq]

theorem values_eq (b : Fin 4) (s : Fin 2048) (o : Fin 1024) :
    val_main_v8 (F := Ideal) x w (ix3 b s o) = proj x w 2 b s o := by
  rw [val_main_v8_apply]
  unfold Cert.Attn.proj
  refine Finset.sum_congr rfl fun k _ => ?_
  have e1 : lidx_main_v8 (ix3 b s o) k = ix3 b s k :=
    funext fun a => Fin.ext (by match a with | ⟨0, _⟩ => rfl | ⟨1, _⟩ => rfl | ⟨2, _⟩ => rfl)
  have e2 : ridx_main_v8 (ix3 b s o) k = ix2 k o :=
    funext fun a => Fin.ext (by match a with | ⟨0, _⟩ => rfl | ⟨1, _⟩ => rfl)
  rw [e1, e2, w2_eq]

/-! ## The scores -/

theorem score_eq (b : Fin 4) (i j : Fin 2048) :
    val_main_v13 (F := Ideal) x w (ix3 b i j) = score x w b i j := by
  rw [val_main_v13_apply, val_main_v11_apply, val_main_v12_apply, scale_eq, Ideal.mulf_def]
  unfold Cert.Attn.score
  refine congrArg (· * _) (Finset.sum_congr rfl fun k _ => ?_)
  have e1 : lidx_main_v11 (ix3 b i j) k = ix3 b i k :=
    funext fun a => Fin.ext (by match a with | ⟨0, _⟩ => rfl | ⟨1, _⟩ => rfl | ⟨2, _⟩ => rfl)
  have e2 : ridx_main_v11 (ix3 b i j) k = ix3 b j k :=
    funext fun a => Fin.ext (by match a with | ⟨0, _⟩ => rfl | ⟨1, _⟩ => rfl | ⟨2, _⟩ => rfl)
  rw [e1, e2, queries_eq, keys_eq]

/-! ## The row maximum -/

/-- A fold of the maximum from `-∞` is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

theorem reduces_d2 : S4x2048x2048.Reduces [2] S4x2048 := by decide

theorem lift_eq (b : Fin 4) (i : Fin 2048) (k : Fin (S4x2048x2048.size 2)) :
    reduces_d2.lift (ix2 b i) k = ix3 b i (⟨k.val, k.isLt⟩ : Fin 2048) := by
  funext c; apply Fin.ext
  fin_cases c <;> rfl

theorem rowMax_eq (b : Fin 4) (i : Fin 2048) :
    val_main_v16 (F := Ideal) x w (ix2 b i) = rowMax x w b i := by
  rw [val_main_v16_apply, val_main_v15_apply, val_main_cst_2_apply, Ideal.maximumf_def, Ideal.ofBits_def, ofBits_negInf,
    max_bot_left]
  unfold val_main_v14
  rw [Host.reduce_eq_fold_single (α := Ideal .f32) (FloatOps.maximumf (F := Ideal) (φ := .f32)) (val_main_v13 (F := Ideal) x w) _ _ reduces_d2 h_S_]
  have hf : (val_main_v13 (F := Ideal) x w ∘ reduces_d2.lift (ix2 b i)) = fun k : Fin 2048 => score x w b i k :=
    funext fun k => (congrArg (val_main_v13 (F := Ideal) x w) (lift_eq b i k)).trans (score_eq x w b i _)
  rw [hf, val_main_cst_1_apply, Ideal.ofBits_def, ofBits_negInf]
  exact fold_max_bot _ _

/-! ## The weights and their sum -/

theorem weight_eq (b : Fin 4) (i j : Fin 2048) :
    val_main_v20 (F := Ideal) x w (ix3 b i j) = weight x w b i j := by
  rw [val_main_v20_apply, val_main_v19_apply, val_main_v18_apply, val_main_v17_apply, Ideal.hostUnary_exp_def,
    Ideal.subf_def, score_eq]
  have e : idx_main_v17 (idx_main_v18 (ix3 b i j)) = ix2 b i :=
    funext fun a => Fin.ext (by match a with | ⟨0, _⟩ => rfl | ⟨1, _⟩ => rfl)
  rw [e, rowMax_eq]
  rfl

theorem rowSum_eq (b : Fin 4) (i : Fin 2048) :
    val_main_v21 (F := Ideal) x w (ix2 b i) = rowSum x w b i := by
  rw [val_main_v21_apply, val_main_cst_3_apply, Ideal.ofBits_def, Ideal.ofBits_zero_f32, zero_add]
  unfold Cert.Attn.rowSum
  refine Finset.sum_congr rfl fun k _ => ?_
  have e : idx_main_v21 (ix2 b i) k = ix3 b i k :=
    funext fun a => Fin.ext (by match a with | ⟨0, _⟩ => rfl | ⟨1, _⟩ => rfl | ⟨2, _⟩ => rfl)
  rw [e, weight_eq]

theorem softmax_eq (b : Fin 4) (i j : Fin 2048) :
    val_main_v24 (F := Ideal) x w (ix3 b i j) = Ideal.div (weight x w b i j) (rowSum x w b i) := by
  rw [val_main_v24_apply, val_main_v23_apply, val_main_v22_apply, Ideal.hostDivf_def, weight_eq]
  have e : idx_main_v22 (idx_main_v23 (ix3 b i j)) = ix2 b i :=
    funext fun a => Fin.ext (by match a with | ⟨0, _⟩ => rfl | ⟨1, _⟩ => rfl)
  rw [e, rowSum_eq]

/-! ## The result -/

/-- The reference's last stage, as a function of the two argument arrays, is the specification. -/
theorem val_eq_G : val_main_v25 (F := Ideal) x w = G x w := by
  funext q
  obtain ⟨b, i, o, rfl⟩ : ∃ (b : Fin 4) (i : Fin 2048) (o : Fin 1024), q = ix3 b i o := ⟨q 0, q 1, q 2, eq_ix3 q⟩
  rw [val_main_v25_apply]
  show _ = ∑ j : Fin 2048, Ideal.div (weight x w b i j) (rowSum x w b i) * proj x w 2 b j o
  refine Finset.sum_congr rfl fun k _ => ?_
  have e1 : lidx_main_v25 (ix3 b i o) k = ix3 b i k :=
    funext fun a => Fin.ext (by match a with | ⟨0, _⟩ => rfl | ⟨1, _⟩ => rfl | ⟨2, _⟩ => rfl)
  have e2 : ridx_main_v25 (ix3 b i o) k = ix3 b k o :=
    funext fun a => Fin.ext (by match a with | ⟨0, _⟩ => rfl | ⟨1, _⟩ => rfl | ⟨2, _⟩ => rfl)
  rw [e1, e2, softmax_eq, values_eq]

open Idealize.ShloMosaic.TcCoe Idealize.SL.Sem in
/-- The term the reference's run ends at is the specification of the two argument buffers. -/
theorem res_eq_G (m : (ℓ : Loc nD τ sig) → Buf (Elt Ideal) ℓ) (c : Dev nD) :
    Cert.ReferenceIdeal.Value.res_main_v25 (F := Ideal) m c
      = G (m ((c.tc : Thread nD τ).loc main_arg0)) (m ((c.tc : Thread nD τ).loc main_arg1)) :=
  (val_main_v25_eq m c).trans (val_eq_G _ _)

end Cert.ReferenceIdeal.RefValue

end
-- ==== Proof.FiniteInputs.lean ====
/-
  Finite inputs are reals. The precondition says that for both argument arrays every entry's absolute value is below
  the f32 word of `+∞`, as one conjunction of two "for all" folds by `and`. On the extended reals the word denotes `⊤`,
  the absolute value of `v` is `max v (-v)`, and `max v (-v) < ⊤` excludes both `⊤` and `⊥`: what is left is a real.
-/
import proofs.«114428_j86569360818603_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

/-- The rank-0 shape has one index. -/
instance : Subsingleton (⟨0, ![]⟩ : Shape).Idx := ⟨fun a b => funext fun d => d.elim0⟩

/-- The f32 word `0x7F800000` denotes `+∞`. -/
theorem ofBits_posInf : Ideal.ofBits .f32 0x7F800000#32 = (⊤ : EReal) := by
  simp [Ideal.ofBits, Ideal.ieee]

/-- An extended real whose absolute value compares below the word of `+∞` is a real. -/
theorem real_of_abs_lt (v : EReal)
    (h : FloatOps.cmpf (F := Ideal) (φ := .f32) .olt (FloatOps.hostAbsf (F := Ideal) (φ := .f32) v)
      (FloatOps.ofBits (F := Ideal) .f32 0x7F800000#32) = 1#1) :
    ∃ r : ℝ, v = (r : EReal) := by
  have h' : max v (-v) < (⊤ : EReal) := by
    have e : BitVec.ofBool (decide (max v (-v) < Ideal.ofBits .f32 0x7F800000#32)) = 1#1 := h
    rw [ofBits_posInf] at e
    by_contra hn
    rw [decide_eq_false hn] at e
    exact absurd e (by decide)
  induction v using EReal.rec with
  | bot => rw [EReal.neg_bot, max_eq_right bot_le] at h'; exact absurd h' (lt_irrefl _)
  | coe r => exact ⟨r, rfl⟩
  | top => rw [max_eq_left le_top] at h'; exact absurd h' (lt_irrefl _)

variable [Facts]

/-- If the precondition holds of two arrays, every entry of each is a real. -/
theorem entries_real (a : FVec Ideal S4x2048x1024 .f32) (b : FVec Ideal S3x1024x1024 .f32)
    (h : fn (F := Ideal) a b = fun _ => 1#1) :
    (∀ i, ∃ r : ℝ, a i = (r : EReal)) ∧ ∀ i, ∃ r : ℝ, b i = (r : EReal) := by
  have h0 := congrFun h ix0
  dsimp only [fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

/-- The same with the reals chosen: each array is the coercion of an array of reals. -/
theorem arrays_real (a : FVec Ideal S4x2048x1024 .f32) (b : FVec Ideal S3x1024x1024 .f32)
    (h : fn (F := Ideal) a b = fun _ => 1#1) :
    (∃ f : S4x2048x1024.Idx → ℝ, a = fun i => ((f i : ℝ) : EReal))
      ∧ ∃ g : S3x1024x1024.Idx → ℝ, b = fun i => ((g i : ℝ) : EReal) := by
  obtain ⟨ha, hb⟩ := entries_real a b h
  exact ⟨⟨fun i => (ha i).choose, funext fun i => (ha i).choose_spec⟩,
    ⟨fun i => (hb i).choose, funext fun i => (hb i).choose_spec⟩⟩

end Cert.FiniteInputs

end
-- ==== Proof.lean ====
/-
  The certificate of a self-attention layer: a Pallas implementation (a fused query/key/value projection kernel and a
  flash-style attention kernel that keeps a running maximum, denominator and numerator over tiles of 256 key rows)
  against the plain formulation (three projections, scaled scores, a softmax over each row, a weighted sum of values).

  The three frames: each program runs to the end, faults nowhere and leaves its two argument arrays unchanged. For the
  kernel, at the word level and at the exact level, this is the run of its four segments — the reshape of the
  activations, the projection region, the reshape of the projections, the attention region (whose three input windows
  read one array) — proved once at any float instance. The idealization rewrote nothing, so that conjunct is trivial.

  The value claim, on the extended reals under finite inputs: both programs end with the specification `Cert.Attn.G` of
  the argument arrays in their result. For the reference this is its operations read one at a time. For the kernel: the
  projection region's result is the matrix products; finite inputs make them real; on real scores the running
  computation over the key tiles keeps the invariant of a softmax-weighted sum (the factor `exp (m - m')` re-bases what
  was accumulated when the maximum grows, and at the first tile it multiplies zero), so that after the last key tile
  the numerator over the denominator is the softmax-weighted sum of the values; and the scale 1/32 the kernel multiplies
  by is the reference's one over the square root of 1024.
-/
import proofs.«114428_j86569360818603_2_alg».proof.Defs
import proofs.«114428_j86569360818603_2_alg».proof.Proof.Gen.Kernel
import proofs.«114428_j86569360818603_2_alg».proof.Proof.Gen.KernelIdeal
import proofs.«114428_j86569360818603_2_alg».proof.Proof.Gen.ReferenceIdeal
import proofs.«114428_j86569360818603_2_alg».proof.Proof.Gen.ReferenceIdeal.Run
import proofs.«114428_j86569360818603_2_alg».proof.Proof.Gen.ReferenceIdeal.Read
import proofs.«114428_j86569360818603_2_alg».proof.Proof.Gen.Pre_finite_inputs
import proofs.«114428_j86569360818603_2_alg».proof.Proof.KWhole
import proofs.«114428_j86569360818603_2_alg».proof.Proof.Whole
import proofs.«114428_j86569360818603_2_alg».proof.Proof.Bridge
import proofs.«114428_j86569360818603_2_alg».proof.Proof.RefValue
import proofs.«114428_j86569360818603_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ =>
  (θ_run (Cert.Kernel.defs (F := Bits)) _ _).mono (fun _ h c => (h c).2) (Cert.Kernel.Whole.run (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Whole.run (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, under finite inputs, both programs end with the specification of the argument arrays. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun _ h c => ⟨(h c).1.trans ?_, (h c).2⟩)
      (Cert.KernelIdeal.Whole.run (F := Ideal) m ρ)
    obtain ⟨⟨xr, hx⟩, ⟨wr, hw⟩⟩ := Cert.FiniteInputs.arrays_real _ _ (hpre c)
    exact Cert.KernelIdeal.Bridge.result_eq_G m ρ c xr wr hx hw
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
